-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 53
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S50000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x64, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S1x64, .f32⟩
  | .hbm, ⟨52, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x64, .f32⟩
  | .local _ .vmem, ⟨19, _⟩ => ⟨S5000x1, .f32⟩
  | .local _ .vmem, ⟨20, _⟩ => ⟨S5000x1, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x1, .f32⟩
  | .local _ .vmem, ⟨28, _⟩ => ⟨S5000x1, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v24) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v35) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v36) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v37) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S800000x1, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x64, .f32⟩
  | .hbm, ⟨68, _⟩ => ⟨S_, .f32⟩
  | .hbm, ⟨69, _⟩ => ⟨S800000, .f32⟩
  | .hbm, ⟨70, _⟩ => ⟨S_, .f32⟩
  | .hbm, ⟨71, _⟩ => ⟨S50000, .f32⟩
  | .hbm, ⟨72, _⟩ => ⟨S800000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000, .f32⟩
  | .hbm, ⟨96, _⟩ => ⟨S800000, .f32⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S800000x64, .f32⟩
  | .hbm, ⟨106, _⟩ => ⟨S800000x1, .f32⟩
  | .hbm, ⟨107, _⟩ => ⟨S800000x64, .f32⟩
  | .hbm, ⟨108, _⟩ => ⟨S800000x64, .f32⟩
  | .hbm, ⟨109, _⟩ => ⟨S_, .f32⟩
  | .hbm, ⟨110, _⟩ => ⟨S50000x64, .f32⟩
  | .hbm, ⟨111, _⟩ => ⟨S800000x1, .i32⟩
  | .hbm, ⟨112, _⟩ => ⟨S50000x64, .f32⟩
  | .hbm, ⟨113, _⟩ => ⟨S50000, .f32⟩
  | .hbm, ⟨114, _⟩ => ⟨S50000x1, .f32⟩
  | .hbm, ⟨115, _⟩ => ⟨S50000x64, .f32⟩
  | .hbm, ⟨116, _⟩ => ⟨S50000x64, .f32⟩
  | .hbm, ⟨117, _⟩ => ⟨S50000x64, .f32⟩
  | .hbm, ⟨118, _⟩ => ⟨S1x64, .f32⟩
  | .hbm, ⟨119, _⟩ => ⟨S50000x64, .f32⟩
  | .hbm, ⟨120, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.ResultRun.lean ====
/-
  The idealized kernel's run with its RESULT named. The program is four kernel regions among three stretches of host
  operations; the contents of every buffer at each boundary between them are a fold from the launch memory (a stretch
  applies its operations, a region replaces its output array by what its grid's write-backs leave), and every weakly fair
  execution ends with every unscoped buffer at the last boundary's contents. Read at the result buffer this names the
  program's result as the last boundary's contents there; read at the arguments it gives them back as launched.
-/
import proofs.«114705_j5342939316732_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents and
    the argument arrays as launched. -/
theorem run : θ_run defs (onTc (τ := τ) (main (F := F))) ⟨m, fun _ => 0, ρ⟩ (fun r => ∀ c : Dev nD,
      r.2.mem ((c.tc : Thread nD τ).loc main_v37) = W7 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v37 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.ResultRun
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.ScaledProduct1.lean ====
/-
  The first layer's scaled product (the first kernel region): at the buffer contents `V` the region is entered with, the output array after the region is, index by
  index, the product of the input's row with the weight's column, scaled by the row's factor:
      out (n, d) = (Σ_k x (n, k) · w (k, d)) · s (n, 0).
  The grid's ten points each take 5000 consecutive rows: point t stages rows 5000·t … 5000·t + 4999 of the input and of
  the factor column and all of the weight, and writes back the same rows of the output. The body narrows both
  operands' format before the product, which changes nothing at the ideal values, multiplies them into a zero
  accumulator (a plain sum over the contracted axis), and multiplies each row by its factor laid along the columns.
  The ten blocks tile the output, so the whole array is that function.
-/
import proofs.«114705_j5342939316732_2_alg».proof.Proof.Gen.KernelIdeal.Frame
import proofs.«114705_j5342939316732_2_alg».proof.Proof.LibDenseRows
import Idealize.ShloMosaic.Lib.Pipeline.Value
import Idealize.ShloMosaic.Lib.ValueIdx

set_option maxRecDepth 16384

noncomputable section

namespace Cert.KernelIdeal.ScaledProduct1

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The rows of `x` times `w`, each row scaled by its factor. -/
def scaledProduct (x : S50000x128.Idx → Ideal .f32) (w : S128x128.Idx → Ideal .f32) (s : S50000x1.Idx → Ideal .f32) :
    S50000x128.Idx → Ideal .f32 :=
  fun i => (∑ k : Fin 128, x (ix2 (i 0 : Fin 50000) k) * w (ix2 k (i 1 : Fin 128))) * s (ix2 (i 0 : Fin 50000) (0 : Fin 1))

theorem scaledProduct_apply (x : S50000x128.Idx → Ideal .f32) (w : S128x128.Idx → Ideal .f32) (s : S50000x1.Idx → Ideal .f32)
    (n : Fin 50000) (d : Fin 128) :
    scaledProduct x w s (ix2 n d) = (∑ k : Fin 128, x (ix2 n k) * w (ix2 k d)) * s (ix2 n (0 : Fin 1)) := rfl

/-! ## The body's product and scaling at an index -/

/-- The product keeps the left operand's row … -/
theorem dot_l0 (j : S5000x128.Idx) (k : dot_S5000x128_S128x128_S5000x128_1_0_0_1_n_n.contr.Idx) :
    (dot_S5000x128_S128x128_S5000x128_1_0_0_1_n_n.lhsIdx j k (0 : Fin 2)).val = (j (0 : Fin 2)).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … and the right operand's column. -/
theorem dot_r1 (j : S5000x128.Idx) (k : dot_S5000x128_S128x128_S5000x128_1_0_0_1_n_n.contr.Idx) :
    (dot_S5000x128_S128x128_S5000x128_1_0_0_1_n_n.rhsIdx j k (1 : Fin 2)).val = (j (1 : Fin 2)).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- What the body stores, at row `p` and column `q` of a block: the block row of `x0` times the column of `x1`, times the
    row's factor. -/
theorem pay_apply (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p (0 : Fin 1)) := by
  unfold k0_pay1
  simp only [shapeCast_self]
  refine congrArg₂ (· * ·) ?_ ?_
  · exact Cert.DenseRows.matmul_zero_plain_apply dot_S5000x128_S128x128_S5000x128_1_0_0_1_n_n rfl rfl rfl rfl dot_l0 dot_r1 _ _ p q
  · exact broadcastTo_apply x2 broadcasts_S5000x1_S5000x128 (ix2 p q) (ix2 p (0 : Fin 1)) (fun a => match a with
      | ⟨0, _⟩ => by show p.val = if (5000 : Nat) = 1 then 0 else p.val; rw [if_neg (by decide)]
      | ⟨1, _⟩ => by show (0 : Nat) = if (1 : Nat) = 1 then 0 else q.val; rw [if_pos rfl])

/-! ## From the blocks to the array -/

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps over the grid: point `t` takes block row `t` of the input, of the factor column and of the
    output, and the one block of the weight. -/
theorem block_rows : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ t.val < 10 :=
  (by decide +kernel : ∀ t : Fin grid0.N, _)

/-- WHAT POINT `t` WRITES BACK is block `t` of the scaled product of the arrays as the region finds them. -/
theorem flushed_eq (c : Dev nD) (t : Fin cfg0.N) :
    (dat0 V c).flushed 3 t = ((cfg0.win 3).blk t).view.read (Elt Ideal)
      (scaledProduct (V c main_arg0) (V c main_arg2) (V c main_v11)) := by
  show (cfg0.win 3).cut (grid0.coords t) ((dat0 V c).after 3 t) = _
  rw [after0_3]
  unfold out0_3
  rw [View.canon_unit_zero origin_zero]
  simp only [View.ld_unit_zero (S := S5000x128) origin_zero, View.ld_unit_zero (S := S128x128) origin_zero,
    View.ld_unit_zero (S := S5000x1) origin_zero]
  obtain ⟨e00, e01, e10, e11, e20, e21, e30, e31, ht⟩ := block_rows t
  funext j
  obtain ⟨p, q, rfl⟩ : ∃ (p : Fin 5000) (q : Fin 128), j = ix2 p q := ⟨j 0, j 1, eq_ix2 j⟩
  refine (pay_apply _ _ _ p q).trans ?_
  have hp : p.val < 5000 := p.isLt
  have hq : q.val < 128 := q.isLt
  have hrow : (5000 * t.val + p.val) < 50000 := by omega
  have ho : ((cfg0.win 3).blk t).view.emb (ix2 p q) = ix2 (⟨5000 * t.val + p.val, hrow⟩ : Fin 50000) q := by
    funext a; apply Fin.ext
    match a with
    | ⟨0, _⟩ => show win0_3.index t (0 : Fin 2) * 5000 + 1 * p.val = 5000 * t.val + p.val; omega
    | ⟨1, _⟩ => show win0_3.index t (1 : Fin 2) * 128 + 1 * q.val = q.val; omega
  have hx : ∀ k : Fin 128, ((cfg0.win 0).blk t).view.emb (ix2 p k) = ix2 (⟨5000 * t.val + p.val, hrow⟩ : Fin 50000) k := by
    intro k
    funext a; apply Fin.ext
    match a with
    | ⟨0, _⟩ => show win0_0.index t (0 : Fin 2) * 5000 + 1 * p.val = 5000 * t.val + p.val; omega
    | ⟨1, _⟩ => show win0_0.index t (1 : Fin 2) * 128 + 1 * k.val = k.val; omega
  have hw : ∀ k : Fin 128, ((cfg0.win 1).blk t).view.emb (ix2 k q) = ix2 k q := by
    intro k
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have hs : ((cfg0.win 2).blk t).view.emb (ix2 p (0 : Fin 1)) = ix2 (⟨5000 * t.val + p.val, hrow⟩ : Fin 50000) (0 : Fin 1) := by
    funext a; apply Fin.ext
    match a with
    | ⟨0, _⟩ => show win0_2.index t (0 : Fin 2) * 5000 + 1 * p.val = 5000 * t.val + p.val; omega
    | ⟨1, _⟩ => show win0_2.index t (1 : Fin 2) * 1 + 1 * 0 = 0; omega
  have key : ∀ (X : S50000x128.Idx → Ideal .f32) (W : S128x128.Idx → Ideal .f32) (S : S50000x1.Idx → Ideal .f32),
      (∑ k : Fin 128, X (((cfg0.win 0).blk t).view.emb (ix2 p k)) * W (((cfg0.win 1).blk t).view.emb (ix2 k q)))
        * S (((cfg0.win 2).blk t).view.emb (ix2 p (0 : Fin 1)))
      = scaledProduct X W S (((cfg0.win 3).blk t).view.emb (ix2 p q)) := by
    intro X W S
    rw [ho, hs, scaledProduct_apply]
    simp only [hx, hw]
  exact key (V c main_arg0) (V c main_arg2) (V c main_v11)

/-- An index of the output array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v12).slice (win0_3.rect t)).set ↔ _
  rw [View.set_slice_whole, Rect.mem_set_unit]
  exact Iff.rfl

/-- Every block row is some point's. -/
theorem block_onto : ∀ b : Fin 10, ∃ t : Fin cfg0.N, t.val = b.val :=
  (by decide +kernel : ∀ b : Fin 10, ∃ t : Fin grid0.N, t.val = b.val)

/-- Every index of the output is in the block of the point that takes its row's block of 5000 rows. -/
theorem covered (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := block_onto ⟨(i 0).val / 5000, by omega⟩
  have ht' : t.val = (i 0).val / 5000 := ht
  obtain ⟨e00, e01, e10, e11, e20, e21, e30, e31, _⟩ := block_rows t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- THE OUTPUT ARRAY after the region: the scaled product of the arrays the region was entered with. -/
theorem final (c : Dev nD) :
    (dat0 V c).arrAt 3 cfg0.N = scaledProduct (V c main_arg0) (V c main_arg2) (V c main_v11) :=
  (dat0 V c).arrAt_eq_of_cover 3 _ (fun t _ => flushed_eq V c t) covered

end Cert.KernelIdeal.ScaledProduct1
-- ==== Proof.Combined1.lean ====
/-
  The first layer's combine step (the second kernel region): at the buffer contents `V` the region is entered with, the output array after the region is, index by
  index, the row's factor times the sum of the aggregated neighbours and the row's own scaled value, plus the bias of
  the column, cut off below at zero:
      out (n, d) = max (s (n, 0) · (agg (n, d) + h (n, d)) + b (0, d)) 0.
  The grid's ten points each take 5000 consecutive rows of the two matrices, of the factor column and of the output, and
  the one bias row; the body is pointwise once the factor column is laid along the columns and the bias row down the
  rows. The ten blocks tile the output, so the whole array is that function.
-/
import proofs.«114705_j5342939316732_2_alg».proof.Proof.Gen.KernelIdeal.Frame
import Idealize.ShloMosaic.Lib.Pipeline.Value
import Idealize.ShloMosaic.Lib.ValueIdx

set_option maxRecDepth 16384

noncomputable section

namespace Cert.KernelIdeal.Combined1

open Cert.KernelIdeal Cert.KernelIdeal.Gen
open Idealize.ShloMosaic Idealize.ShloMosaic.TcCoe Idealize.ShloMosaic.ValueIdx Idealize.SL.Sem
open Idealize.ShloMosaic.Pipeline (Dat)

/-- The row's factor times (aggregate + own value), plus the column's bias, cut off below at the zero word's value. -/
def combined (agg h : S50000x128.Idx → Ideal .f32) (s : S50000x1.Idx → Ideal .f32) (b : S1x128.Idx → Ideal .f32) :
    S50000x128.Idx → Ideal .f32 :=
  fun i => max (s (ix2 (i 0 : Fin 50000) (0 : Fin 1)) * (agg i + h i) + b (ix2 (0 : Fin 1) (i 1 : Fin 128))) (Ideal.ofBits .f32 0x00000000#32)

theorem combined_apply (agg h : S50000x128.Idx → Ideal .f32) (s : S50000x1.Idx → Ideal .f32) (b : S1x128.Idx → Ideal .f32)
    (n : Fin 50000) (d : Fin 128) :
    combined agg h s b (ix2 n d)
      = max (s (ix2 n (0 : Fin 1)) * (agg (ix2 n d) + h (ix2 n d)) + b (ix2 (0 : Fin 1) d)) (Ideal.ofBits .f32 0x00000000#32) := rfl

/-! ## The body at an index -/

/-- What the body stores, at row `p` and column `q` of a block. -/
theorem pay_apply (x2 : Vec Ideal S5000x1 .f32) (x0 x1 : Vec Ideal S5000x128 .f32) (x3 : Vec Ideal S1x128 .f32)
    (p : Fin 5000) (q : Fin 128) :
    k1_pay1 x2 x0 x1 x3 (ix2 p q)
      = max (x2 (ix2 p (0 : Fin 1)) * (x0 (ix2 p q) + x1 (ix2 p q)) + x3 (ix2 (0 : Fin 1) q)) (Ideal.ofBits .f32 0x00000000#32) := by
  unfold k1_pay1
  have hs : broadcastTo S5000x128 (shapeCast S5000x1 x2 shapeCasts_S5000x1_S5000x1) broadcasts_S5000x1_S5000x128 (ix2 p q) = x2 (ix2 p (0 : Fin 1)) := by
    rw [shapeCast_self]
    exact broadcastTo_apply x2 broadcasts_S5000x1_S5000x128 (ix2 p q) (ix2 p (0 : Fin 1)) (fun a => match a with
      | ⟨0, _⟩ => by show p.val = if (5000 : Nat) = 1 then 0 else p.val; rw [if_neg (by decide)]
      | ⟨1, _⟩ => by show (0 : Nat) = if (1 : Nat) = 1 then 0 else q.val; rw [if_pos rfl])
  have hb : broadcastTo S5000x128 (shapeCast S1x128 x3 shapeCasts_S1x128_S1x128) broadcasts_S1x128_S5000x128 (ix2 p q) = x3 (ix2 (0 : Fin 1) q) := by
    rw [shapeCast_self]
    exact broadcastTo_apply x3 broadcasts_S1x128_S5000x128 (ix2 p q) (ix2 (0 : Fin 1) q) (fun a => match a with
      | ⟨0, _⟩ => by show (0 : Nat) = if (1 : Nat) = 1 then 0 else p.val; rw [if_pos rfl]
      | ⟨1, _⟩ => by show q.val = if (128 : Nat) = 1 then 0 else q.val; rw [if_neg (by decide)])
  show max (broadcastTo S5000x128 (shapeCast S5000x1 x2 shapeCasts_S5000x1_S5000x1) broadcasts_S5000x1_S5000x128 (ix2 p q)
      * (shapeCast S5000x128 x0 shapeCasts_S5000x128_S5000x128 (ix2 p q) + shapeCast S5000x128 x1 shapeCasts_S5000x128_S5000x128 (ix2 p q))
      + broadcastTo S5000x128 (shapeCast S1x128 x3 shapeCasts_S1x128_S1x128) broadcasts_S1x128_S5000x128 (ix2 p q)) (Ideal.ofBits .f32 0x00000000#32) = _
  rw [hs, hb, shapeCast_self, shapeCast_self]

/-! ## From the blocks to the array -/

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps over the grid: point `t` takes block row `t` of both matrices, of the factor column and of the
    output, and the one bias row. -/
theorem block_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 10 :=
  (by decide +kernel : ∀ t : Fin grid1.N, _)

/-- WHAT POINT `t` WRITES BACK is block `t` of the combined array of the arrays as the region finds them. -/
theorem flushed_eq (c : Dev nD) (t : Fin cfg1.N) :
    (dat1 V c).flushed 4 t = ((cfg1.win 4).blk t).view.read (Elt Ideal)
      (combined (V c main_v22) (V c main_v12) (V c main_v11) (V c main_v23)) := by
  show (cfg1.win 4).cut (grid1.coords t) ((dat1 V c).after 4 t) = _
  rw [after1_4]
  unfold out1_4
  rw [View.canon_unit_zero origin_zero]
  simp only [View.ld_unit_zero (S := S5000x128) origin_zero, View.ld_unit_zero (S := S1x128) origin_zero,
    View.ld_unit_zero (S := S5000x1) origin_zero]
  obtain ⟨e00, e01, e10, e11, e20, e21, e30, e31, e40, e41, ht⟩ := block_rows t
  funext j
  obtain ⟨p, q, rfl⟩ : ∃ (p : Fin 5000) (q : Fin 128), j = ix2 p q := ⟨j 0, j 1, eq_ix2 j⟩
  refine (pay_apply _ _ _ _ p q).trans ?_
  have hp : p.val < 5000 := p.isLt
  have hq : q.val < 128 := q.isLt
  have hrow : (5000 * t.val + p.val) < 50000 := by omega
  have ho : ((cfg1.win 4).blk t).view.emb (ix2 p q) = ix2 (⟨5000 * t.val + p.val, hrow⟩ : Fin 50000) q := by
    funext a; apply Fin.ext
    match a with
    | ⟨0, _⟩ => show win1_4.index t (0 : Fin 2) * 5000 + 1 * p.val = 5000 * t.val + p.val; omega
    | ⟨1, _⟩ => show win1_4.index t (1 : Fin 2) * 128 + 1 * q.val = q.val; omega
  have h0 : ((cfg1.win 0).blk t).view.emb (ix2 p q) = ix2 (⟨5000 * t.val + p.val, hrow⟩ : Fin 50000) q := by
    funext a; apply Fin.ext
    match a with
    | ⟨0, _⟩ => show win1_0.index t (0 : Fin 2) * 5000 + 1 * p.val = 5000 * t.val + p.val; omega
    | ⟨1, _⟩ => show win1_0.index t (1 : Fin 2) * 128 + 1 * q.val = q.val; omega
  have h1 : ((cfg1.win 1).blk t).view.emb (ix2 p q) = ix2 (⟨5000 * t.val + p.val, hrow⟩ : Fin 50000) q := by
    funext a; apply Fin.ext
    match a with
    | ⟨0, _⟩ => show win1_1.index t (0 : Fin 2) * 5000 + 1 * p.val = 5000 * t.val + p.val; omega
    | ⟨1, _⟩ => show win1_1.index t (1 : Fin 2) * 128 + 1 * q.val = q.val; omega
  have h2 : ((cfg1.win 2).blk t).view.emb (ix2 p (0 : Fin 1)) = ix2 (⟨5000 * t.val + p.val, hrow⟩ : Fin 50000) (0 : Fin 1) := by
    funext a; apply Fin.ext
    match a with
    | ⟨0, _⟩ => show win1_2.index t (0 : Fin 2) * 5000 + 1 * p.val = 5000 * t.val + p.val; omega
    | ⟨1, _⟩ => show win1_2.index t (1 : Fin 2) * 1 + 1 * 0 = 0; omega
  have h3 : ((cfg1.win 3).blk t).view.emb (ix2 (0 : Fin 1) q) = ix2 (0 : Fin 1) q := by
    funext a; apply Fin.ext
    match a with
    | ⟨0, _⟩ => show win1_3.index t (0 : Fin 2) * 1 + 1 * 0 = 0; omega
    | ⟨1, _⟩ => show win1_3.index t (1 : Fin 2) * 128 + 1 * q.val = q.val; omega
  have key : ∀ (A H : S50000x128.Idx → Ideal .f32) (S : S50000x1.Idx → Ideal .f32) (B : S1x128.Idx → Ideal .f32),
      max (S (((cfg1.win 2).blk t).view.emb (ix2 p (0 : Fin 1)))
        * (A (((cfg1.win 0).blk t).view.emb (ix2 p q)) + H (((cfg1.win 1).blk t).view.emb (ix2 p q)))
        + B (((cfg1.win 3).blk t).view.emb (ix2 (0 : Fin 1) q))) (Ideal.ofBits .f32 0x00000000#32)
      = combined A H S B (((cfg1.win 4).blk t).view.emb (ix2 p q)) := by
    intro A H S B
    rw [ho, h0, h1, h2, h3, combined_apply]
  exact key (V c main_v22) (V c main_v12) (V c main_v11) (V c main_v23)

/-- An index of the output array is in point `t`'s block iff each coordinate is in the block's range on its axis. -/
theorem mem_blk (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v24).slice (win1_4.rect t)).set ↔ _
  rw [View.set_slice_whole, Rect.mem_set_unit]
  exact Iff.rfl

/-- Every block row is some point's. -/
theorem block_onto : ∀ b : Fin 10, ∃ t : Fin cfg1.N, t.val = b.val :=
  (by decide +kernel : ∀ b : Fin 10, ∃ t : Fin grid1.N, t.val = b.val)

/-- Every index of the output is in the block of the point that takes its row's block of 5000 rows. -/
theorem covered (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := block_onto ⟨(i 0).val / 5000, by omega⟩
  have ht' : t.val = (i 0).val / 5000 := ht
  obtain ⟨e00, e01, e10, e11, e20, e21, e30, e31, e40, e41, _⟩ := block_rows t
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-- THE OUTPUT ARRAY after the region: the combined array of the arrays the region was entered with. -/
theorem final (c : Dev nD) :
    (dat1 V c).arrAt 4 cfg1.N = combined (V c main_v22) (V c main_v12) (V c main_v11) (V c main_v23) :=
  (dat1 V c).arrAt_eq_of_cover 4 _ (fun t _ => flushed_eq V c t) covered

end Cert.KernelIdeal.Combined1
-- ==== Proof.ScaledProduct2.lean ====
/-
  The second layer's scaled product (the third kernel region): at the buffer contents `V` the region is entered with, the output array after the region is, index by
  index, the product of the input's row with the weight's column, scaled by the row's factor:
      out (n, d) = (Σ_k x (n, k) · w (k, d)) · s (n, 0).
  The grid's ten points each take 5000 consecutive rows: point t stages rows 5000·t … 5000·t + 4999 of the input and of
  the factor column and all of the weight, and writes back the same rows of the output. The body narrows both
  operands' format before the product, which changes nothing at the ideal values, multiplies them into a zero
  accumulator (a plain sum over the contracted axis), and multiplies each row by its factor laid along the columns.
  The ten blocks tile the output, so the whole array is that function.
-/
import proofs.«114705_j5342939316732_2_alg».proof.Proof.Gen.KernelIdeal.Frame
import proofs.«114705_j5342939316732_2_alg».proof.Proof.LibDenseRows
import Idealize.ShloMosaic.Lib.Pipeline.Value
import Idealize.ShloMosaic.Lib.ValueIdx

set_option maxRecDepth 16384

noncomputable section

namespace Cert.KernelIdeal.ScaledProduct2

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The rows of `x` times `w`, each row scaled by its factor. -/
def scaledProduct (x : S50000x128.Idx → Ideal .f32) (w : S128x64.Idx → Ideal .f32) (s : S50000x1.Idx → Ideal .f32) :
    S50000x64.Idx → Ideal .f32 :=
  fun i => (∑ k : Fin 128, x (ix2 (i 0 : Fin 50000) k) * w (ix2 k (i 1 : Fin 64))) * s (ix2 (i 0 : Fin 50000) (0 : Fin 1))

theorem scaledProduct_apply (x : S50000x128.Idx → Ideal .f32) (w : S128x64.Idx → Ideal .f32) (s : S50000x1.Idx → Ideal .f32)
    (n : Fin 50000) (d : Fin 64) :
    scaledProduct x w s (ix2 n d) = (∑ k : Fin 128, x (ix2 n k) * w (ix2 k d)) * s (ix2 n (0 : Fin 1)) := rfl

/-! ## The body's product and scaling at an index -/

/-- The product keeps the left operand's row … -/
theorem dot_l0 (j : S5000x64.Idx) (k : dot_S5000x128_S128x64_S5000x64_1_0_0_1_n_n.contr.Idx) :
    (dot_S5000x128_S128x64_S5000x64_1_0_0_1_n_n.lhsIdx j k (0 : Fin 2)).val = (j (0 : Fin 2)).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
/-- … and the right operand's column. -/
theorem dot_r1 (j : S5000x64.Idx) (k : dot_S5000x128_S128x64_S5000x64_1_0_0_1_n_n.contr.Idx) :
    (dot_S5000x128_S128x64_S5000x64_1_0_0_1_n_n.rhsIdx j k (1 : Fin 2)).val = (j (1 : Fin 2)).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- What the body stores, at row `p` and column `q` of a block: the block row of `x0` times the column of `x1`, times the
    row's factor. -/
theorem pay_apply (x0 : Vec Ideal S5000x128 .f32) (x1 : Vec Ideal S128x64 .f32) (x2 : Vec Ideal S5000x1 .f32)
    (p : Fin 5000) (q : Fin 64) :
    k2_pay1 x0 x1 x2 (ix2 p q) = (∑ k : Fin 128, x0 (ix2 p k) * x1 (ix2 k q)) * x2 (ix2 p (0 : Fin 1)) := by
  unfold k2_pay1
  simp only [shapeCast_self]
  refine congrArg₂ (· * ·) ?_ ?_
  · exact Cert.DenseRows.matmul_zero_plain_apply dot_S5000x128_S128x64_S5000x64_1_0_0_1_n_n rfl rfl rfl rfl dot_l0 dot_r1 _ _ p q
  · exact broadcastTo_apply x2 broadcasts_S5000x1_S5000x64 (ix2 p q) (ix2 p (0 : Fin 1)) (fun a => match a with
      | ⟨0, _⟩ => by show p.val = if (5000 : Nat) = 1 then 0 else p.val; rw [if_neg (by decide)]
      | ⟨1, _⟩ => by show (0 : Nat) = if (1 : Nat) = 1 then 0 else q.val; rw [if_pos rfl])

/-! ## From the blocks to the array -/

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps over the grid: point `t` takes block row `t` of the input, of the factor column and of the
    output, and the one block of the weight. -/
theorem block_rows : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 ∧ t.val < 10 :=
  (by decide +kernel : ∀ t : Fin grid2.N, _)

/-- WHAT POINT `t` WRITES BACK is block `t` of the scaled product of the arrays as the region finds them. -/
theorem flushed_eq (c : Dev nD) (t : Fin cfg2.N) :
    (dat2 V c).flushed 3 t = ((cfg2.win 3).blk t).view.read (Elt Ideal)
      (scaledProduct (V c main_v24) (V c main_arg4) (V c main_v11)) := by
  show (cfg2.win 3).cut (grid2.coords t) ((dat2 V c).after 3 t) = _
  rw [after2_3]
  unfold out2_3
  rw [View.canon_unit_zero origin_zero]
  simp only [View.ld_unit_zero (S := S5000x128) origin_zero, View.ld_unit_zero (S := S128x64) origin_zero,
    View.ld_unit_zero (S := S5000x1) origin_zero]
  obtain ⟨e00, e01, e10, e11, e20, e21, e30, e31, ht⟩ := block_rows t
  funext j
  obtain ⟨p, q, rfl⟩ : ∃ (p : Fin 5000) (q : Fin 64), j = ix2 p q := ⟨j 0, j 1, eq_ix2 j⟩
  refine (pay_apply _ _ _ p q).trans ?_
  have hp : p.val < 5000 := p.isLt
  have hq : q.val < 64 := q.isLt
  have hrow : (5000 * t.val + p.val) < 50000 := by omega
  have ho : ((cfg2.win 3).blk t).view.emb (ix2 p q) = ix2 (⟨5000 * t.val + p.val, hrow⟩ : Fin 50000) q := by
    funext a; apply Fin.ext
    match a with
    | ⟨0, _⟩ => show win2_3.index t (0 : Fin 2) * 5000 + 1 * p.val = 5000 * t.val + p.val; omega
    | ⟨1, _⟩ => show win2_3.index t (1 : Fin 2) * 64 + 1 * q.val = q.val; omega
  have hx : ∀ k : Fin 128, ((cfg2.win 0).blk t).view.emb (ix2 p k) = ix2 (⟨5000 * t.val + p.val, hrow⟩ : Fin 50000) k := by
    intro k
    funext a; apply Fin.ext
    match a with
    | ⟨0, _⟩ => show win2_0.index t (0 : Fin 2) * 5000 + 1 * p.val = 5000 * t.val + p.val; omega
    | ⟨1, _⟩ => show win2_0.index t (1 : Fin 2) * 128 + 1 * k.val = k.val; omega
  have hw : ∀ k : Fin 128, ((cfg2.win 1).blk t).view.emb (ix2 k q) = ix2 k q := by
    intro k
    funext a; apply Fin.ext
    match a with
    | ⟨0, _⟩ => show win2_1.index t (0 : Fin 2) * 128 + 1 * k.val = k.val; omega
    | ⟨1, _⟩ => show win2_1.index t (1 : Fin 2) * 64 + 1 * q.val = q.val; omega
  have hs : ((cfg2.win 2).blk t).view.emb (ix2 p (0 : Fin 1)) = ix2 (⟨5000 * t.val + p.val, hrow⟩ : Fin 50000) (0 : Fin 1) := by
    funext a; apply Fin.ext
    match a with
    | ⟨0, _⟩ => show win2_2.index t (0 : Fin 2) * 5000 + 1 * p.val = 5000 * t.val + p.val; omega
    | ⟨1, _⟩ => show win2_2.index t (1 : Fin 2) * 1 + 1 * 0 = 0; omega
  have key : ∀ (X : S50000x128.Idx → Ideal .f32) (W : S128x64.Idx → Ideal .f32) (S : S50000x1.Idx → Ideal .f32),
      (∑ k : Fin 128, X (((cfg2.win 0).blk t).view.emb (ix2 p k)) * W (((cfg2.win 1).blk t).view.emb (ix2 k q)))
        * S (((cfg2.win 2).blk t).view.emb (ix2 p (0 : Fin 1)))
      = scaledProduct X W S (((cfg2.win 3).blk t).view.emb (ix2 p q)) := by
    intro X W S
    rw [ho, hs, scaledProduct_apply]
    simp only [hx, hw]
  exact key (V c main_v24) (V c main_arg4) (V c main_v11)

/-- An index of the output array is in point `t`'s block iff each coordinate is in the block's range on its axis. -/
theorem mem_blk (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v25).slice (win2_3.rect t)).set ↔ _
  rw [View.set_slice_whole, Rect.mem_set_unit]
  exact Iff.rfl

/-- Every block row is some point's. -/
theorem block_onto : ∀ b : Fin 10, ∃ t : Fin cfg2.N, t.val = b.val :=
  (by decide +kernel : ∀ b : Fin 10, ∃ t : Fin grid2.N, t.val = b.val)

/-- Every index of the output is in the block of the point that takes its row's block of 5000 rows. -/
theorem covered (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ := block_onto ⟨(i 0).val / 5000, by omega⟩
  have ht' : t.val = (i 0).val / 5000 := ht
  obtain ⟨e00, e01, e10, e11, e20, e21, e30, e31, _⟩ := block_rows t
  refine ⟨t, flush2_3 t, ?_⟩
  rw [mem_blk]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 64 ≤ (i 1).val ∧ (i 1).val < win2_3.index t (1 : Fin 2) * 64 + 64
    omega

/-- THE OUTPUT ARRAY after the region: the scaled product of the arrays the region was entered with. -/
theorem final (c : Dev nD) :
    (dat2 V c).arrAt 3 cfg2.N = scaledProduct (V c main_v24) (V c main_arg4) (V c main_v11) :=
  (dat2 V c).arrAt_eq_of_cover 3 _ (fun t _ => flushed_eq V c t) covered

end Cert.KernelIdeal.ScaledProduct2
-- ==== Proof.Combined2.lean ====
/-
  The second layer's combine step (the fourth kernel region): at the buffer contents `V` the region is entered with, the output array after the region is, index by
  index, the row's factor times the sum of the aggregated neighbours and the row's own scaled value, plus the bias of
  the column:
      out (n, d) = s (n, 0) · (agg (n, d) + h (n, d)) + b (0, d).
  The grid's ten points each take 5000 consecutive rows of the two matrices, of the factor column and of the output, and
  the one bias row; the body is pointwise once the factor column is laid along the columns and the bias row down the
  rows. The ten blocks tile the output, so the whole array is that function.
-/
import proofs.«114705_j5342939316732_2_alg».proof.Proof.Gen.KernelIdeal.Frame
import Idealize.ShloMosaic.Lib.Pipeline.Value
import Idealize.ShloMosaic.Lib.ValueIdx

set_option maxRecDepth 16384

noncomputable section

namespace Cert.KernelIdeal.Combined2

open Cert.KernelIdeal Cert.KernelIdeal.Gen
open Idealize.ShloMosaic Idealize.ShloMosaic.TcCoe Idealize.ShloMosaic.ValueIdx Idealize.SL.Sem
open Idealize.ShloMosaic.Pipeline (Dat)

/-- The row's factor times (aggregate + own value), plus the column's bias. -/
def combined (agg h : S50000x64.Idx → Ideal .f32) (s : S50000x1.Idx → Ideal .f32) (b : S1x64.Idx → Ideal .f32) :
    S50000x64.Idx → Ideal .f32 :=
  fun i => s (ix2 (i 0 : Fin 50000) (0 : Fin 1)) * (agg i + h i) + b (ix2 (0 : Fin 1) (i 1 : Fin 64))

theorem combined_apply (agg h : S50000x64.Idx → Ideal .f32) (s : S50000x1.Idx → Ideal .f32) (b : S1x64.Idx → Ideal .f32)
    (n : Fin 50000) (d : Fin 64) :
    combined agg h s b (ix2 n d)
      = s (ix2 n (0 : Fin 1)) * (agg (ix2 n d) + h (ix2 n d)) + b (ix2 (0 : Fin 1) d) := rfl

/-! ## The body at an index -/

/-- What the body stores, at row `p` and column `q` of a block. -/
theorem pay_apply (x2 : Vec Ideal S5000x1 .f32) (x0 x1 : Vec Ideal S5000x64 .f32) (x3 : Vec Ideal S1x64 .f32)
    (p : Fin 5000) (q : Fin 64) :
    k3_pay1 x2 x0 x1 x3 (ix2 p q)
      = x2 (ix2 p (0 : Fin 1)) * (x0 (ix2 p q) + x1 (ix2 p q)) + x3 (ix2 (0 : Fin 1) q) := by
  unfold k3_pay1
  have hs : broadcastTo S5000x64 (shapeCast S5000x1 x2 shapeCasts_S5000x1_S5000x1) broadcasts_S5000x1_S5000x64 (ix2 p q) = x2 (ix2 p (0 : Fin 1)) := by
    rw [shapeCast_self]
    exact broadcastTo_apply x2 broadcasts_S5000x1_S5000x64 (ix2 p q) (ix2 p (0 : Fin 1)) (fun a => match a with
      | ⟨0, _⟩ => by show p.val = if (5000 : Nat) = 1 then 0 else p.val; rw [if_neg (by decide)]
      | ⟨1, _⟩ => by show (0 : Nat) = if (1 : Nat) = 1 then 0 else q.val; rw [if_pos rfl])
  have hb : broadcastTo S5000x64 (shapeCast S1x64 x3 shapeCasts_S1x64_S1x64) broadcasts_S1x64_S5000x64 (ix2 p q) = x3 (ix2 (0 : Fin 1) q) := by
    rw [shapeCast_self]
    exact broadcastTo_apply x3 broadcasts_S1x64_S5000x64 (ix2 p q) (ix2 (0 : Fin 1) q) (fun a => match a with
      | ⟨0, _⟩ => by show (0 : Nat) = if (1 : Nat) = 1 then 0 else p.val; rw [if_pos rfl]
      | ⟨1, _⟩ => by show q.val = if (64 : Nat) = 1 then 0 else q.val; rw [if_neg (by decide)])
  show broadcastTo S5000x64 (shapeCast S5000x1 x2 shapeCasts_S5000x1_S5000x1) broadcasts_S5000x1_S5000x64 (ix2 p q)
      * (shapeCast S5000x64 x0 shapeCasts_S5000x64_S5000x64 (ix2 p q) + shapeCast S5000x64 x1 shapeCasts_S5000x64_S5000x64 (ix2 p q))
      + broadcastTo S5000x64 (shapeCast S1x64 x3 shapeCasts_S1x64_S1x64) broadcasts_S1x64_S5000x64 (ix2 p q) = _
  rw [hs, hb, shapeCast_self, shapeCast_self]

/-! ## From the blocks to the array -/

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps over the grid: point `t` takes block row `t` of both matrices, of the factor column and of the
    output, and the one bias row. -/
theorem block_rows : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 ∧ t.val < 10 :=
  (by decide +kernel : ∀ t : Fin grid3.N, _)

/-- WHAT POINT `t` WRITES BACK is block `t` of the combined array of the arrays as the region finds them. -/
theorem flushed_eq (c : Dev nD) (t : Fin cfg3.N) :
    (dat3 V c).flushed 4 t = ((cfg3.win 4).blk t).view.read (Elt Ideal)
      (combined (V c main_v35) (V c main_v25) (V c main_v11) (V c main_v36)) := by
  show (cfg3.win 4).cut (grid3.coords t) ((dat3 V c).after 4 t) = _
  rw [after3_4]
  unfold out3_4
  rw [View.canon_unit_zero origin_zero]
  simp only [View.ld_unit_zero (S := S5000x64) origin_zero, View.ld_unit_zero (S := S1x64) origin_zero,
    View.ld_unit_zero (S := S5000x1) origin_zero]
  obtain ⟨e00, e01, e10, e11, e20, e21, e30, e31, e40, e41, ht⟩ := block_rows t
  funext j
  obtain ⟨p, q, rfl⟩ : ∃ (p : Fin 5000) (q : Fin 64), j = ix2 p q := ⟨j 0, j 1, eq_ix2 j⟩
  refine (pay_apply _ _ _ _ p q).trans ?_
  have hp : p.val < 5000 := p.isLt
  have hq : q.val < 64 := q.isLt
  have hrow : (5000 * t.val + p.val) < 50000 := by omega
  have ho : ((cfg3.win 4).blk t).view.emb (ix2 p q) = ix2 (⟨5000 * t.val + p.val, hrow⟩ : Fin 50000) q := by
    funext a; apply Fin.ext
    match a with
    | ⟨0, _⟩ => show win3_4.index t (0 : Fin 2) * 5000 + 1 * p.val = 5000 * t.val + p.val; omega
    | ⟨1, _⟩ => show win3_4.index t (1 : Fin 2) * 64 + 1 * q.val = q.val; omega
  have h0 : ((cfg3.win 0).blk t).view.emb (ix2 p q) = ix2 (⟨5000 * t.val + p.val, hrow⟩ : Fin 50000) q := by
    funext a; apply Fin.ext
    match a with
    | ⟨0, _⟩ => show win3_0.index t (0 : Fin 2) * 5000 + 1 * p.val = 5000 * t.val + p.val; omega
    | ⟨1, _⟩ => show win3_0.index t (1 : Fin 2) * 64 + 1 * q.val = q.val; omega
  have h1 : ((cfg3.win 1).blk t).view.emb (ix2 p q) = ix2 (⟨5000 * t.val + p.val, hrow⟩ : Fin 50000) q := by
    funext a; apply Fin.ext
    match a with
    | ⟨0, _⟩ => show win3_1.index t (0 : Fin 2) * 5000 + 1 * p.val = 5000 * t.val + p.val; omega
    | ⟨1, _⟩ => show win3_1.index t (1 : Fin 2) * 64 + 1 * q.val = q.val; omega
  have h2 : ((cfg3.win 2).blk t).view.emb (ix2 p (0 : Fin 1)) = ix2 (⟨5000 * t.val + p.val, hrow⟩ : Fin 50000) (0 : Fin 1) := by
    funext a; apply Fin.ext
    match a with
    | ⟨0, _⟩ => show win3_2.index t (0 : Fin 2) * 5000 + 1 * p.val = 5000 * t.val + p.val; omega
    | ⟨1, _⟩ => show win3_2.index t (1 : Fin 2) * 1 + 1 * 0 = 0; omega
  have h3 : ((cfg3.win 3).blk t).view.emb (ix2 (0 : Fin 1) q) = ix2 (0 : Fin 1) q := by
    funext a; apply Fin.ext
    match a with
    | ⟨0, _⟩ => show win3_3.index t (0 : Fin 2) * 1 + 1 * 0 = 0; omega
    | ⟨1, _⟩ => show win3_3.index t (1 : Fin 2) * 64 + 1 * q.val = q.val; omega
  have key : ∀ (A H : S50000x64.Idx → Ideal .f32) (S : S50000x1.Idx → Ideal .f32) (B : S1x64.Idx → Ideal .f32),
      S (((cfg3.win 2).blk t).view.emb (ix2 p (0 : Fin 1)))
        * (A (((cfg3.win 0).blk t).view.emb (ix2 p q)) + H (((cfg3.win 1).blk t).view.emb (ix2 p q)))
        + B (((cfg3.win 3).blk t).view.emb (ix2 (0 : Fin 1) q))
      = combined A H S B (((cfg3.win 4).blk t).view.emb (ix2 p q)) := by
    intro A H S B
    rw [ho, h0, h1, h2, h3, combined_apply]
  exact key (V c main_v35) (V c main_v25) (V c main_v11) (V c main_v36)

/-- An index of the output array is in point `t`'s block iff each coordinate is in the block's range on its axis. -/
theorem mem_blk (t : Fin cfg3.N) (i : S50000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v37).slice (win3_4.rect t)).set ↔ _
  rw [View.set_slice_whole, Rect.mem_set_unit]
  exact Iff.rfl

/-- Every block row is some point's. -/
theorem block_onto : ∀ b : Fin 10, ∃ t : Fin cfg3.N, t.val = b.val :=
  (by decide +kernel : ∀ b : Fin 10, ∃ t : Fin grid3.N, t.val = b.val)

/-- Every index of the output is in the block of the point that takes its row's block of 5000 rows. -/
theorem covered (i : S50000x64.Idx) : ∃ t : Fin cfg3.N, (cfg3.win 4).flush t = true ∧ i ∈ ((cfg3.win 4).blk t).view.set := by
  have hi0 : (i 0).val < 50000 := (i 0).isLt
  have hi1 : (i 1).val < 64 := (i 1).isLt
  obtain ⟨t, ht⟩ := block_onto ⟨(i 0).val / 5000, by omega⟩
  have ht' : t.val = (i 0).val / 5000 := ht
  obtain ⟨e00, e01, e10, e11, e20, e21, e30, e31, e40, e41, _⟩ := block_rows t
  refine ⟨t, flush3_4 t, ?_⟩
  rw [mem_blk]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 64 ≤ (i 1).val ∧ (i 1).val < win3_4.index t (1 : Fin 2) * 64 + 64
    omega

/-- THE OUTPUT ARRAY after the region: the combined array of the arrays the region was entered with. -/
theorem final (c : Dev nD) :
    (dat3 V c).arrAt 4 cfg3.N = combined (V c main_v35) (V c main_v25) (V c main_v11) (V c main_v36) :=
  (dat3 V c).arrAt_eq_of_cover 4 _ (fun t _ => flushed_eq V c t) covered

end Cert.KernelIdeal.Combined2
-- ==== Proof.Stages.lean ====
/-
  The idealized kernel's result as ONE function of the argument arrays, and the walk through the program that shows it.

  The stages. From the edge array e : [2, 800000] the program takes its two rows, the source and the destination row
  numbers. The degree of node n is one plus the number of edges whose destination number is n (a segment sum of ones: a
  number that names no node adds nowhere), and the node's factor is the reciprocal square root of its degree, kept as a
  column. A layer then has four steps: the scaled product h' = (x · W) · factor (a kernel region); its rows gathered at
  the source numbers (a negative number first moved up by the node count, then every number clamped into the nodes) and
  added into the rows their destination numbers name (host operations); and the combine step
  factor · (aggregate + h') + bias (a kernel region), cut off below at zero after the first layer.

  The walk. Every buffer's contents at each boundary between a stretch of host operations and a kernel region are a fold
  from the launch memory. A host stretch leaves a buffer it does not write as it was and writes the others at its
  operations' values; a region leaves every buffer that is not its output as it was (an input window's array is read,
  never written) and its output array at the function the region's blocks tile. Following the result buffer backwards
  through the seven boundaries gives the stages above, composed.
-/
import proofs.«114705_j5342939316732_2_alg».proof.Proof.Gen.KernelIdeal.Frame
import proofs.«114705_j5342939316732_2_alg».proof.Proof.ScaledProduct1
import proofs.«114705_j5342939316732_2_alg».proof.Proof.Combined1
import proofs.«114705_j5342939316732_2_alg».proof.Proof.ScaledProduct2
import proofs.«114705_j5342939316732_2_alg».proof.Proof.Combined2
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.ShloMosaic.Tactic Idealize.SL.Sem Idealize.ShloMosaic.StableHlo

/-! ## The stages, as whole arrays -/

/-- The edges' source row numbers: the edge array's first row. -/
def srcRows (e : (⟨S2x800000, .i32⟩ : BufTy).Contents (Elt Ideal)) : (⟨S800000, .i32⟩ : BufTy).Contents (Elt Ideal) :=
  shapeCast S800000 (extractStridedSlice S1x800000 ![0, 0] e slices_S2x800000_S1x800000_0_0) shapeCasts_S1x800000_S800000
/-- The edges' destination row numbers: its second row. -/
def dstRows (e : (⟨S2x800000, .i32⟩ : BufTy).Contents (Elt Ideal)) : (⟨S800000, .i32⟩ : BufTy).Contents (Elt Ideal) :=
  shapeCast S800000 (extractStridedSlice S1x800000 ![1, 0] e slices_S2x800000_S1x800000_1_0) shapeCasts_S1x800000_S800000
/-- Row numbers as a column of scatter or gather indices. -/
def asCol (r : (⟨S800000, .i32⟩ : BufTy).Contents (Elt Ideal)) : (⟨S800000x1, .i32⟩ : BufTy).Contents (Elt Ideal) :=
  broadcastInDim S800000x1 ![0] bcast_S800000_S800000x1_0 r
/-- A negative row number moved up by the node count, the others kept. -/
def wrapped (r : (⟨S800000, .i32⟩ : BufTy).Contents (Elt Ideal)) : (⟨S800000, .i32⟩ : BufTy).Contents (Elt Ideal) :=
  select (cmpi .slt r (broadcastInDim S800000 ![] bcast_S_S800000 (constantI S_ 32 0#32)))
    (addi r (broadcastInDim S800000 ![] bcast_S_S800000 (constantI S_ 32 50000#32))) r
/-- Each node's factor: the reciprocal square root of one plus the number of edges whose destination it is. -/
def factorVec (dst : (⟨S800000, .i32⟩ : BufTy).Contents (Elt Ideal)) : (⟨S50000, .f32⟩ : BufTy).Contents (Elt Ideal) :=
  Host.rsqrt (F := Ideal) (addf
    (Host.scatterAdd (F := Ideal) scatter_S50000_S800000x1_S800000_n_0_0_1
      (broadcastInDim S50000 ![] bcast_S_S50000 (constant (F := Ideal) S_ .f32 0#32)) (asCol dst)
      (broadcastInDim S800000 ![] bcast_S_S800000 (constant (F := Ideal) S_ .f32 1065353216#32)))
    (broadcastInDim S50000 ![] bcast_S_S50000 (constant (F := Ideal) S_ .f32 1065353216#32)))
/-- The factors as a column. -/
def factorCol (dst : (⟨S800000, .i32⟩ : BufTy).Contents (Elt Ideal)) : (⟨S50000x1, .f32⟩ : BufTy).Contents (Elt Ideal) :=
  shapeCast S50000x1 (factorVec dst) shapeCasts_S50000_S50000x1
/-- Rows gathered at the source numbers and added into the rows the destination numbers name, 128 columns. -/
def aggregate128 (h : (⟨S50000x128, .f32⟩ : BufTy).Contents (Elt Ideal)) (src dst : (⟨S800000, .i32⟩ : BufTy).Contents (Elt Ideal)) : (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0#32)) (asCol dst)
    (Host.gather gather_S50000x128_S800000x1_S800000x128_1_0_n_n_0_1_1128 h (asCol (wrapped src)))
/-- The same, 64 columns. -/
def aggregate64 (h : (⟨S50000x64, .f32⟩ : BufTy).Contents (Elt Ideal)) (src dst : (⟨S800000, .i32⟩ : BufTy).Contents (Elt Ideal)) : (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0#32)) (asCol dst)
    (Host.gather gather_S50000x64_S800000x1_S800000x64_1_0_n_n_0_1_164 h (asCol (wrapped src)))
/-- A bias vector as one row. -/
def biasRow128 (b : (⟨S128, .f32⟩ : BufTy).Contents (Elt Ideal)) : (⟨S1x128, .f32⟩ : BufTy).Contents (Elt Ideal) := shapeCast S1x128 b shapeCasts_S128_S1x128
def biasRow64 (b : (⟨S64, .f32⟩ : BufTy).Contents (Elt Ideal)) : (⟨S1x64, .f32⟩ : BufTy).Contents (Elt Ideal) := shapeCast S1x64 b shapeCasts_S64_S1x64

/-- The first layer's scaled product. -/
def scaled1 (x : (⟨S50000x128, .f32⟩ : BufTy).Contents (Elt Ideal)) (e : (⟨S2x800000, .i32⟩ : BufTy).Contents (Elt Ideal)) (w1 : (⟨S128x128, .f32⟩ : BufTy).Contents (Elt Ideal)) : (⟨S50000x128, .f32⟩ : BufTy).Contents (Elt Ideal) :=
  ScaledProduct1.scaledProduct x w1 (factorCol (dstRows e))
/-- Its aggregate over the edges. -/
def agg1 (x : (⟨S50000x128, .f32⟩ : BufTy).Contents (Elt Ideal)) (e : (⟨S2x800000, .i32⟩ : BufTy).Contents (Elt Ideal)) (w1 : (⟨S128x128, .f32⟩ : BufTy).Contents (Elt Ideal)) : (⟨S50000x128, .f32⟩ : BufTy).Contents (Elt Ideal) :=
  aggregate128 (scaled1 x e w1) (srcRows e) (dstRows e)
/-- The first layer's output. -/
def out1 (x : (⟨S50000x128, .f32⟩ : BufTy).Contents (Elt Ideal)) (e : (⟨S2x800000, .i32⟩ : BufTy).Contents (Elt Ideal)) (w1 : (⟨S128x128, .f32⟩ : BufTy).Contents (Elt Ideal)) (b1 : (⟨S128, .f32⟩ : BufTy).Contents (Elt Ideal)) : (⟨S50000x128, .f32⟩ : BufTy).Contents (Elt Ideal) :=
  Combined1.combined (agg1 x e w1) (scaled1 x e w1) (factorCol (dstRows e)) (biasRow128 b1)
/-- The second layer's scaled product, of the first layer's output. -/
def scaled2 (x : (⟨S50000x128, .f32⟩ : BufTy).Contents (Elt Ideal)) (e : (⟨S2x800000, .i32⟩ : BufTy).Contents (Elt Ideal)) (w1 : (⟨S128x128, .f32⟩ : BufTy).Contents (Elt Ideal)) (b1 : (⟨S128, .f32⟩ : BufTy).Contents (Elt Ideal)) (w2 : (⟨S128x64, .f32⟩ : BufTy).Contents (Elt Ideal)) : (⟨S50000x64, .f32⟩ : BufTy).Contents (Elt Ideal) :=
  ScaledProduct2.scaledProduct (out1 x e w1 b1) w2 (factorCol (dstRows e))
/-- Its aggregate over the edges. -/
def agg2 (x : (⟨S50000x128, .f32⟩ : BufTy).Contents (Elt Ideal)) (e : (⟨S2x800000, .i32⟩ : BufTy).Contents (Elt Ideal)) (w1 : (⟨S128x128, .f32⟩ : BufTy).Contents (Elt Ideal)) (b1 : (⟨S128, .f32⟩ : BufTy).Contents (Elt Ideal)) (w2 : (⟨S128x64, .f32⟩ : BufTy).Contents (Elt Ideal)) : (⟨S50000x64, .f32⟩ : BufTy).Contents (Elt Ideal) :=
  aggregate64 (scaled2 x e w1 b1 w2) (srcRows e) (dstRows e)
/-- THE RESULT: the second layer's output. -/
def result (x : (⟨S50000x128, .f32⟩ : BufTy).Contents (Elt Ideal)) (e : (⟨S2x800000, .i32⟩ : BufTy).Contents (Elt Ideal)) (w1 : (⟨S128x128, .f32⟩ : BufTy).Contents (Elt Ideal)) (b1 : (⟨S128, .f32⟩ : BufTy).Contents (Elt Ideal)) (w2 : (⟨S128x64, .f32⟩ : BufTy).Contents (Elt Ideal)) (b2 : (⟨S64, .f32⟩ : BufTy).Contents (Elt Ideal)) : (⟨S50000x64, .f32⟩ : BufTy).Contents (Elt Ideal) :=
  Combined2.combined (agg2 x e w1 b1 w2) (scaled2 x e w1 b1 w2) (factorCol (dstRows e)) (biasRow64 b2)

theorem scaled1_congr {x x' : S50000x128.Idx → Ideal .f32} {w w' : S128x128.Idx → Ideal .f32} {s s' : S50000x1.Idx → Ideal .f32}
    (hx : x = x') (hw : w = w') (hs : s = s') :
    ScaledProduct1.scaledProduct x w s = ScaledProduct1.scaledProduct x' w' s' := by subst hx hw hs; rfl
theorem scaled2_congr {x x' : S50000x128.Idx → Ideal .f32} {w w' : S128x64.Idx → Ideal .f32} {s s' : S50000x1.Idx → Ideal .f32}
    (hx : x = x') (hw : w = w') (hs : s = s') :
    ScaledProduct2.scaledProduct x w s = ScaledProduct2.scaledProduct x' w' s' := by subst hx hw hs; rfl
theorem combined1_congr {a a' h h' : S50000x128.Idx → Ideal .f32} {s s' : S50000x1.Idx → Ideal .f32} {b b' : S1x128.Idx → Ideal .f32}
    (ha : a = a') (hh : h = h') (hs : s = s') (hb : b = b') :
    Combined1.combined a h s b = Combined1.combined a' h' s' b' := by subst ha hh hs hb; rfl
theorem combined2_congr {a a' h h' : S50000x64.Idx → Ideal .f32} {s s' : S50000x1.Idx → Ideal .f32} {b b' : S1x64.Idx → Ideal .f32}
    (ha : a = a') (hh : h = h') (hs : s = s') (hb : b = b') :
    Combined2.combined a h s b = Combined2.combined a' h' s' b' := by subst ha hh hs hb; rfl

/-! ## The walk: each tracked buffer at each boundary -/

variable (m : (ℓ : Loc nD τ sig) → Buf (Elt Ideal) ℓ) (ρ : Dev nD → PrngReg)

theorem at1_v1 (c : Dev nD) :
    (W1 m ρ c (Proc.devRef .tc main_v1) : (⟨S800000, .i32⟩ : BufTy).Contents (Elt Ideal)) = srcRows (m ((c : Thread nD τ).loc main_arg1)) := by
  show StableHlo.after hostOps0 (W0 m ρ c) (Proc.devRef .tc main_v1) = _
  after_results
  rfl

theorem at1_v3 (c : Dev nD) :
    (W1 m ρ c (Proc.devRef .tc main_v3) : (⟨S800000, .i32⟩ : BufTy).Contents (Elt Ideal)) = dstRows (m ((c : Thread nD τ).loc main_arg1)) := by
  show StableHlo.after hostOps0 (W0 m ρ c) (Proc.devRef .tc main_v3) = _
  after_results
  rfl

theorem at1_v11 (c : Dev nD) :
    (W1 m ρ c (Proc.devRef .tc main_v11) : (⟨S50000x1, .f32⟩ : BufTy).Contents (Elt Ideal)) = factorCol (dstRows (m ((c : Thread nD τ).loc main_arg1))) := by
  show StableHlo.after hostOps0 (W0 m ρ c) (Proc.devRef .tc main_v11) = _
  after_results
  rfl

theorem at1_arg0 (c : Dev nD) :
    (W1 m ρ c (Proc.devRef .tc main_arg0) : (⟨S50000x128, .f32⟩ : BufTy).Contents (Elt Ideal)) = (m ((c : Thread nD τ).loc main_arg0)) :=
  (StableHlo.after_of_forall_not_mem (b := (Proc.devRef .tc main_arg0)) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem at1_arg2 (c : Dev nD) :
    (W1 m ρ c (Proc.devRef .tc main_arg2) : (⟨S128x128, .f32⟩ : BufTy).Contents (Elt Ideal)) = (m ((c : Thread nD τ).loc main_arg2)) :=
  (StableHlo.after_of_forall_not_mem (b := (Proc.devRef .tc main_arg2)) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem at1_arg3 (c : Dev nD) :
    (W1 m ρ c (Proc.devRef .tc main_arg3) : (⟨S128, .f32⟩ : BufTy).Contents (Elt Ideal)) = (m ((c : Thread nD τ).loc main_arg3)) :=
  (StableHlo.after_of_forall_not_mem (b := (Proc.devRef .tc main_arg3)) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem at1_arg4 (c : Dev nD) :
    (W1 m ρ c (Proc.devRef .tc main_arg4) : (⟨S128x64, .f32⟩ : BufTy).Contents (Elt Ideal)) = (m ((c : Thread nD τ).loc main_arg4)) :=
  (StableHlo.after_of_forall_not_mem (b := (Proc.devRef .tc main_arg4)) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem at1_arg5 (c : Dev nD) :
    (W1 m ρ c (Proc.devRef .tc main_arg5) : (⟨S64, .f32⟩ : BufTy).Contents (Elt Ideal)) = (m ((c : Thread nD τ).loc main_arg5)) :=
  (StableHlo.after_of_forall_not_mem (b := (Proc.devRef .tc main_arg5)) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem at2_v12 (c : Dev nD) :
    (W2 m ρ c (Proc.devRef .tc main_v12) : (⟨S50000x128, .f32⟩ : BufTy).Contents (Elt Ideal)) = scaled1 (m ((c : Thread nD τ).loc main_arg0)) (m ((c : Thread nD τ).loc main_arg1)) (m ((c : Thread nD τ).loc main_arg2)) :=
  (W2_arr m ρ c 3).trans ((ScaledProduct1.final (V1 m ρ) c).trans
    (scaled1_congr (at1_arg0 m ρ c) (at1_arg2 m ρ c) (at1_v11 m ρ c)))

theorem at2_v11 (c : Dev nD) :
    (W2 m ρ c (Proc.devRef .tc main_v11) : (⟨S50000x1, .f32⟩ : BufTy).Contents (Elt Ideal)) = factorCol (dstRows (m ((c : Thread nD τ).loc main_arg1))) :=
  ((W2_arr m ρ c 2).trans (((dat0 (V1 m ρ) c).arrAt_in 2 rfl _).trans (A_eq0 (V1 m ρ) c 2))).trans (at1_v11 m ρ c)

theorem at2_v1 (c : Dev nD) :
    (W2 m ρ c (Proc.devRef .tc main_v1) : (⟨S800000, .i32⟩ : BufTy).Contents (Elt Ideal)) = srcRows (m ((c : Thread nD τ).loc main_arg1)) :=
  (W2_of_ne m ρ c main_v1 (by decide)).trans (at1_v1 m ρ c)

theorem at2_v3 (c : Dev nD) :
    (W2 m ρ c (Proc.devRef .tc main_v3) : (⟨S800000, .i32⟩ : BufTy).Contents (Elt Ideal)) = dstRows (m ((c : Thread nD τ).loc main_arg1)) :=
  (W2_of_ne m ρ c main_v3 (by decide)).trans (at1_v3 m ρ c)

theorem at2_arg3 (c : Dev nD) :
    (W2 m ρ c (Proc.devRef .tc main_arg3) : (⟨S128, .f32⟩ : BufTy).Contents (Elt Ideal)) = (m ((c : Thread nD τ).loc main_arg3)) :=
  (W2_of_ne m ρ c main_arg3 (by decide)).trans (at1_arg3 m ρ c)

theorem at2_arg4 (c : Dev nD) :
    (W2 m ρ c (Proc.devRef .tc main_arg4) : (⟨S128x64, .f32⟩ : BufTy).Contents (Elt Ideal)) = (m ((c : Thread nD τ).loc main_arg4)) :=
  (W2_of_ne m ρ c main_arg4 (by decide)).trans (at1_arg4 m ρ c)

theorem at2_arg5 (c : Dev nD) :
    (W2 m ρ c (Proc.devRef .tc main_arg5) : (⟨S64, .f32⟩ : BufTy).Contents (Elt Ideal)) = (m ((c : Thread nD τ).loc main_arg5)) :=
  (W2_of_ne m ρ c main_arg5 (by decide)).trans (at1_arg5 m ρ c)

theorem at3_v22 (c : Dev nD) :
    (W3 m ρ c (Proc.devRef .tc main_v22) : (⟨S50000x128, .f32⟩ : BufTy).Contents (Elt Ideal)) = agg1 (m ((c : Thread nD τ).loc main_arg0)) (m ((c : Thread nD τ).loc main_arg1)) (m ((c : Thread nD τ).loc main_arg2)) := by
  show StableHlo.after hostOps1 (W2 m ρ c) (Proc.devRef .tc main_v22) = _
  after_results
  rw [at2_v12 m ρ c, at2_v1 m ρ c, at2_v3 m ρ c]
  rfl

theorem at3_v23 (c : Dev nD) :
    (W3 m ρ c (Proc.devRef .tc main_v23) : (⟨S1x128, .f32⟩ : BufTy).Contents (Elt Ideal)) = biasRow128 (m ((c : Thread nD τ).loc main_arg3)) := by
  show StableHlo.after hostOps1 (W2 m ρ c) (Proc.devRef .tc main_v23) = _
  after_results
  rw [at2_arg3 m ρ c]
  rfl

theorem at3_v12 (c : Dev nD) :
    (W3 m ρ c (Proc.devRef .tc main_v12) : (⟨S50000x128, .f32⟩ : BufTy).Contents (Elt Ideal)) = scaled1 (m ((c : Thread nD τ).loc main_arg0)) (m ((c : Thread nD τ).loc main_arg1)) (m ((c : Thread nD τ).loc main_arg2)) :=
  (StableHlo.after_of_forall_not_mem (b := (Proc.devRef .tc main_v12)) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at2_v12 m ρ c)

theorem at3_v11 (c : Dev nD) :
    (W3 m ρ c (Proc.devRef .tc main_v11) : (⟨S50000x1, .f32⟩ : BufTy).Contents (Elt Ideal)) = factorCol (dstRows (m ((c : Thread nD τ).loc main_arg1))) :=
  (StableHlo.after_of_forall_not_mem (b := (Proc.devRef .tc main_v11)) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at2_v11 m ρ c)

theorem at3_v1 (c : Dev nD) :
    (W3 m ρ c (Proc.devRef .tc main_v1) : (⟨S800000, .i32⟩ : BufTy).Contents (Elt Ideal)) = srcRows (m ((c : Thread nD τ).loc main_arg1)) :=
  (StableHlo.after_of_forall_not_mem (b := (Proc.devRef .tc main_v1)) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at2_v1 m ρ c)

theorem at3_v3 (c : Dev nD) :
    (W3 m ρ c (Proc.devRef .tc main_v3) : (⟨S800000, .i32⟩ : BufTy).Contents (Elt Ideal)) = dstRows (m ((c : Thread nD τ).loc main_arg1)) :=
  (StableHlo.after_of_forall_not_mem (b := (Proc.devRef .tc main_v3)) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at2_v3 m ρ c)

theorem at3_arg4 (c : Dev nD) :
    (W3 m ρ c (Proc.devRef .tc main_arg4) : (⟨S128x64, .f32⟩ : BufTy).Contents (Elt Ideal)) = (m ((c : Thread nD τ).loc main_arg4)) :=
  (StableHlo.after_of_forall_not_mem (b := (Proc.devRef .tc main_arg4)) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at2_arg4 m ρ c)

theorem at3_arg5 (c : Dev nD) :
    (W3 m ρ c (Proc.devRef .tc main_arg5) : (⟨S64, .f32⟩ : BufTy).Contents (Elt Ideal)) = (m ((c : Thread nD τ).loc main_arg5)) :=
  (StableHlo.after_of_forall_not_mem (b := (Proc.devRef .tc main_arg5)) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at2_arg5 m ρ c)

theorem at4_v24 (c : Dev nD) :
    (W4 m ρ c (Proc.devRef .tc main_v24) : (⟨S50000x128, .f32⟩ : BufTy).Contents (Elt Ideal)) = out1 (m ((c : Thread nD τ).loc main_arg0)) (m ((c : Thread nD τ).loc main_arg1)) (m ((c : Thread nD τ).loc main_arg2)) (m ((c : Thread nD τ).loc main_arg3)) :=
  (W4_arr m ρ c 4).trans ((Combined1.final (V3 m ρ) c).trans
    (combined1_congr (at3_v22 m ρ c) (at3_v12 m ρ c) (at3_v11 m ρ c) (at3_v23 m ρ c)))

theorem at4_v11 (c : Dev nD) :
    (W4 m ρ c (Proc.devRef .tc main_v11) : (⟨S50000x1, .f32⟩ : BufTy).Contents (Elt Ideal)) = factorCol (dstRows (m ((c : Thread nD τ).loc main_arg1))) :=
  ((W4_arr m ρ c 2).trans (((dat1 (V3 m ρ) c).arrAt_in 2 rfl _).trans (A_eq1 (V3 m ρ) c 2))).trans (at3_v11 m ρ c)

theorem at4_v1 (c : Dev nD) :
    (W4 m ρ c (Proc.devRef .tc main_v1) : (⟨S800000, .i32⟩ : BufTy).Contents (Elt Ideal)) = srcRows (m ((c : Thread nD τ).loc main_arg1)) :=
  (W4_of_ne m ρ c main_v1 (by decide)).trans (at3_v1 m ρ c)

theorem at4_v3 (c : Dev nD) :
    (W4 m ρ c (Proc.devRef .tc main_v3) : (⟨S800000, .i32⟩ : BufTy).Contents (Elt Ideal)) = dstRows (m ((c : Thread nD τ).loc main_arg1)) :=
  (W4_of_ne m ρ c main_v3 (by decide)).trans (at3_v3 m ρ c)

theorem at4_arg4 (c : Dev nD) :
    (W4 m ρ c (Proc.devRef .tc main_arg4) : (⟨S128x64, .f32⟩ : BufTy).Contents (Elt Ideal)) = (m ((c : Thread nD τ).loc main_arg4)) :=
  (W4_of_ne m ρ c main_arg4 (by decide)).trans (at3_arg4 m ρ c)

theorem at4_arg5 (c : Dev nD) :
    (W4 m ρ c (Proc.devRef .tc main_arg5) : (⟨S64, .f32⟩ : BufTy).Contents (Elt Ideal)) = (m ((c : Thread nD τ).loc main_arg5)) :=
  (W4_of_ne m ρ c main_arg5 (by decide)).trans (at3_arg5 m ρ c)

theorem at5_v25 (c : Dev nD) :
    (W5 m ρ c (Proc.devRef .tc main_v25) : (⟨S50000x64, .f32⟩ : BufTy).Contents (Elt Ideal)) = scaled2 (m ((c : Thread nD τ).loc main_arg0)) (m ((c : Thread nD τ).loc main_arg1)) (m ((c : Thread nD τ).loc main_arg2)) (m ((c : Thread nD τ).loc main_arg3)) (m ((c : Thread nD τ).loc main_arg4)) :=
  (W5_arr m ρ c 3).trans ((ScaledProduct2.final (V4 m ρ) c).trans
    (scaled2_congr (at4_v24 m ρ c) (at4_arg4 m ρ c) (at4_v11 m ρ c)))

theorem at5_v11 (c : Dev nD) :
    (W5 m ρ c (Proc.devRef .tc main_v11) : (⟨S50000x1, .f32⟩ : BufTy).Contents (Elt Ideal)) = factorCol (dstRows (m ((c : Thread nD τ).loc main_arg1))) :=
  ((W5_arr m ρ c 2).trans (((dat2 (V4 m ρ) c).arrAt_in 2 rfl _).trans (A_eq2 (V4 m ρ) c 2))).trans (at4_v11 m ρ c)

theorem at5_v1 (c : Dev nD) :
    (W5 m ρ c (Proc.devRef .tc main_v1) : (⟨S800000, .i32⟩ : BufTy).Contents (Elt Ideal)) = srcRows (m ((c : Thread nD τ).loc main_arg1)) :=
  (W5_of_ne m ρ c main_v1 (by decide)).trans (at4_v1 m ρ c)

theorem at5_v3 (c : Dev nD) :
    (W5 m ρ c (Proc.devRef .tc main_v3) : (⟨S800000, .i32⟩ : BufTy).Contents (Elt Ideal)) = dstRows (m ((c : Thread nD τ).loc main_arg1)) :=
  (W5_of_ne m ρ c main_v3 (by decide)).trans (at4_v3 m ρ c)

theorem at5_arg5 (c : Dev nD) :
    (W5 m ρ c (Proc.devRef .tc main_arg5) : (⟨S64, .f32⟩ : BufTy).Contents (Elt Ideal)) = (m ((c : Thread nD τ).loc main_arg5)) :=
  (W5_of_ne m ρ c main_arg5 (by decide)).trans (at4_arg5 m ρ c)

theorem at6_v35 (c : Dev nD) :
    (W6 m ρ c (Proc.devRef .tc main_v35) : (⟨S50000x64, .f32⟩ : BufTy).Contents (Elt Ideal)) = agg2 (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v35) = _
  after_results
  rw [at5_v25 m ρ c, at5_v1 m ρ c, at5_v3 m ρ c]
  rfl

theorem at6_v36 (c : Dev nD) :
    (W6 m ρ c (Proc.devRef .tc main_v36) : (⟨S1x64, .f32⟩ : BufTy).Contents (Elt Ideal)) = biasRow64 (m ((c : Thread nD τ).loc main_arg5)) := by
  show StableHlo.after hostOps3 (W5 m ρ c) (Proc.devRef .tc main_v36) = _
  after_results
  rw [at5_arg5 m ρ c]
  rfl

theorem at6_v25 (c : Dev nD) :
    (W6 m ρ c (Proc.devRef .tc main_v25) : (⟨S50000x64, .f32⟩ : BufTy).Contents (Elt Ideal)) = scaled2 (m ((c : Thread nD τ).loc main_arg0)) (m ((c : Thread nD τ).loc main_arg1)) (m ((c : Thread nD τ).loc main_arg2)) (m ((c : Thread nD τ).loc main_arg3)) (m ((c : Thread nD τ).loc main_arg4)) :=
  (StableHlo.after_of_forall_not_mem (b := (Proc.devRef .tc main_v25)) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at5_v25 m ρ c)

theorem at6_v11 (c : Dev nD) :
    (W6 m ρ c (Proc.devRef .tc main_v11) : (⟨S50000x1, .f32⟩ : BufTy).Contents (Elt Ideal)) = factorCol (dstRows (m ((c : Thread nD τ).loc main_arg1))) :=
  (StableHlo.after_of_forall_not_mem (b := (Proc.devRef .tc main_v11)) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at5_v11 m ρ c)

theorem at7_v37 (c : Dev nD) :
    (W7 m ρ c (Proc.devRef .tc main_v37) : (⟨S50000x64, .f32⟩ : BufTy).Contents (Elt Ideal)) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W7_arr m ρ c 4).trans ((Combined2.final (V6 m ρ) c).trans
    (combined2_congr (at6_v35 m ρ c) (at6_v25 m ρ c) (at6_v11 m ρ c) (at6_v36 m ρ c)))

end Cert.KernelIdeal.Stages
-- ==== Proof.LibSegmentSum.lean ====
/-
  The host's accumulating scatter, read at an index given by coordinates, at the ideal values, for the dimension
  numbers of a SEGMENT SUM: the scatter indices are a column of N row numbers (shape [N, 1], the index vector along
  the second axis), update row i is added into operand row idx[i] (the scatter axis goes to operand axis 0, which is
  the one inserted window axis), and the update's remaining axis, if any, runs along the operand's columns. An element
  of the result is then the operand's element plus the sum of the update elements in the same column whose row number
  is that element's row: a sum over a filter of Fin N. A row number read signed that is negative or not below the
  operand's row count lands outside and adds nothing, which the filter says by itself, the wanted row being a row.
-/
import Idealize.ShloMosaic.Lib.ValueIdx
import Idealize.ShloMosaic.PureOps.Ideal.Laws

noncomputable section

namespace Cert.SegmentSum

open Idealize.ShloMosaic Idealize.ShloMosaic.ValueIdx
open scoped BigOperators

/-! ## Updates of rows: operand [S, C], updates [N, C] -/

/-- Update element (i, b) lands on operand element (s, c) exactly when row number i, read signed, is s and b = c:
    the start is (row number, 0) and the window coordinate is (0, b), so the landing place is (row number, b), inside
    the operand exactly when the row number is one of its rows. -/
theorem resultIdx?_rows_eq_some_iff {S C N w : ℕ} (d : ScatterDims ⟨2, ![S, C]⟩ ⟨2, ![N, 1]⟩ ⟨2, ![N, C]⟩)
    (hs0 : ∀ (i : Fin N) (b : Fin C) (idx : IVec ⟨2, ![N, 1]⟩ w),
      d.start (ix2 i b) idx (0 : Fin 2) = (idx (ix2 i (0 : Fin 1))).toInt)
    (hs1 : ∀ (i : Fin N) (b : Fin C) (idx : IVec ⟨2, ![N, 1]⟩ w), d.start (ix2 i b) idx (1 : Fin 2) = 0)
    (hw0 : ∀ (i : Fin N) (b : Fin C), d.window (ix2 i b) (0 : Fin 2) = 0)
    (hw1 : ∀ (i : Fin N) (b : Fin C), d.window (ix2 i b) (1 : Fin 2) = b.val)
    (idx : IVec ⟨2, ![N, 1]⟩ w) (i : Fin N) (b : Fin C) (s : Fin S) (c : Fin C) :
    d.resultIdx? (ix2 i b) idx = some (ix2 s c) ↔ (idx (ix2 i (0 : Fin 1))).toInt = (s.val : Int) ∧ b = c := by
  unfold ScatterDims.resultIdx?
  constructor
  · intro h
    split_ifs at h with hr
    have h' := Option.some.inj h
    have h0 : (d.start (ix2 i b) idx (0 : Fin 2) + (d.window (ix2 i b) (0 : Fin 2) : Int)).toNat = s.val :=
      congrArg (fun f : (⟨2, ![S, C]⟩ : Shape).Idx => (f (0 : Fin 2)).val) h'
    have h1 : (d.start (ix2 i b) idx (1 : Fin 2) + (d.window (ix2 i b) (1 : Fin 2) : Int)).toNat = c.val :=
      congrArg (fun f : (⟨2, ![S, C]⟩ : Shape).Idx => (f (1 : Fin 2)).val) h'
    have hr0 := (hr (0 : Fin 2)).1
    rw [hs0, hw0] at h0 hr0
    rw [hs1, hw1] at h1
    refine ⟨by omega, Fin.ext (by omega)⟩
  · rintro ⟨hrow, rfl⟩
    have hr : ∀ a : Fin 2, 0 ≤ d.start (ix2 i b) idx a + (d.window (ix2 i b) a : Int) ∧
        d.start (ix2 i b) idx a + (d.window (ix2 i b) a : Int) < ((⟨2, ![S, C]⟩ : Shape).size a : Int) := by
      intro a
      match a with
      | ⟨0, _⟩ =>
        have e1 := hs0 i b idx
        have e2 := hw0 i b
        have hS : (s.val : Int) < (S : Int) := by exact_mod_cast s.isLt
        show 0 ≤ d.start (ix2 i b) idx (0 : Fin 2) + (d.window (ix2 i b) (0 : Fin 2) : Int) ∧
          d.start (ix2 i b) idx (0 : Fin 2) + (d.window (ix2 i b) (0 : Fin 2) : Int) < (S : Int)
        rw [e1, e2]; omega
      | ⟨1, _⟩ =>
        have e1 := hs1 i b idx
        have e2 := hw1 i b
        have hC : (b.val : Int) < (C : Int) := by exact_mod_cast b.isLt
        show 0 ≤ d.start (ix2 i b) idx (1 : Fin 2) + (d.window (ix2 i b) (1 : Fin 2) : Int) ∧
          d.start (ix2 i b) idx (1 : Fin 2) + (d.window (ix2 i b) (1 : Fin 2) : Int) < (C : Int)
        rw [e1, e2]; omega
    rw [dif_pos hr]
    congr 1
    funext a
    apply Fin.ext
    match a with
    | ⟨0, _⟩ =>
      show (d.start (ix2 i b) idx (0 : Fin 2) + (d.window (ix2 i b) (0 : Fin 2) : Int)).toNat = s.val
      rw [hs0, hw0]; omega
    | ⟨1, _⟩ =>
      show (d.start (ix2 i b) idx (1 : Fin 2) + (d.window (ix2 i b) (1 : Fin 2) : Int)).toNat = b.val
      rw [hs1, hw1]; omega

/-- The accumulating scatter of N update rows into an operand of S rows, at row s and column c: the operand's element
    plus the sum, over the update rows i whose row number (read signed) is s, of the update at (i, c). The hypotheses say
    what the dimension numbers mean: the start is (row number, 0), the window coordinate is (0, update column). The sum
    over the update indices that land on (s, c) is split by coordinates; the column must be c and the row's number s. -/
theorem scatterAdd_rows_apply {S C N w : ℕ} (d : ScatterDims ⟨2, ![S, C]⟩ ⟨2, ![N, 1]⟩ ⟨2, ![N, C]⟩)
    (hs0 : ∀ (i : Fin N) (b : Fin C) (idx : IVec ⟨2, ![N, 1]⟩ w),
      d.start (ix2 i b) idx (0 : Fin 2) = (idx (ix2 i (0 : Fin 1))).toInt)
    (hs1 : ∀ (i : Fin N) (b : Fin C) (idx : IVec ⟨2, ![N, 1]⟩ w), d.start (ix2 i b) idx (1 : Fin 2) = 0)
    (hw0 : ∀ (i : Fin N) (b : Fin C), d.window (ix2 i b) (0 : Fin 2) = 0)
    (hw1 : ∀ (i : Fin N) (b : Fin C), d.window (ix2 i b) (1 : Fin 2) = b.val)
    (x : FVec Ideal ⟨2, ![S, C]⟩ .f32) (idx : IVec ⟨2, ![N, 1]⟩ w) (upd : FVec Ideal ⟨2, ![N, C]⟩ .f32)
    (s : Fin S) (c : Fin C) :
    Host.scatterAdd d x idx upd (ix2 s c) = x (ix2 s c) +
      ∑ i ∈ Finset.univ.filter (fun i : Fin N => (idx (ix2 i (0 : Fin 1))).toInt = (s.val : Int)), upd (ix2 i c) := by
  show x (ix2 s c) + ∑ j ∈ Finset.univ.filter (fun j => d.resultIdx? j idx = some (ix2 s c)), upd j = _
  congr 1
  rw [Finset.sum_filter, Finset.sum_filter, sum_idx2]
  refine Finset.sum_congr rfl fun i _ => ?_
  simp only [resultIdx?_rows_eq_some_iff d hs0 hs1 hw0 hw1]
  by_cases h : (idx (ix2 i (0 : Fin 1))).toInt = (s.val : Int)
  · simp only [h, true_and, if_true]
    rw [Finset.sum_ite_eq' Finset.univ c (fun b => upd (ix2 i b))]
    simp
  · simp only [h, false_and, if_false, Finset.sum_const_zero]

/-! ## Updates of single elements: operand [S], updates [N] -/

/-- A rank-1 index set is its one coordinate range … -/
def idxEquiv1 {n : ℕ} : (⟨1, ![n]⟩ : Shape).Idx ≃ Fin n where
  toFun j := j 0
  invFun i := ix1 i
  left_inv j := (eq_ix1 j).symm
  right_inv _ := rfl

/-- … so a sum over it is the sum over the coordinate. -/
theorem sum_idx1 {M : Type*} [AddCommMonoid M] {n : ℕ} (f : (⟨1, ![n]⟩ : Shape).Idx → M) :
    ∑ j, f j = ∑ i : Fin n, f (ix1 i) := by
  rw [← Equiv.sum_comp (idxEquiv1 (n := n)).symm f]
  rfl

/-- Update element i lands on operand element s exactly when row number i, read signed, is s: the start is the row
    number and there is no window, so the landing place is the row number, inside the operand exactly when it is one of
    its elements. -/
theorem resultIdx?_vec_eq_some_iff {S N w : ℕ} (d : ScatterDims ⟨1, ![S]⟩ ⟨2, ![N, 1]⟩ ⟨1, ![N]⟩)
    (hs0 : ∀ (i : Fin N) (idx : IVec ⟨2, ![N, 1]⟩ w),
      d.start (ix1 i) idx (0 : Fin 1) = (idx (ix2 i (0 : Fin 1))).toInt)
    (hw0 : ∀ (i : Fin N), d.window (ix1 i) (0 : Fin 1) = 0)
    (idx : IVec ⟨2, ![N, 1]⟩ w) (i : Fin N) (s : Fin S) :
    d.resultIdx? (ix1 i) idx = some (ix1 s) ↔ (idx (ix2 i (0 : Fin 1))).toInt = (s.val : Int) := by
  unfold ScatterDims.resultIdx?
  constructor
  · intro h
    split_ifs at h with hr
    have h' := Option.some.inj h
    have h0 : (d.start (ix1 i) idx (0 : Fin 1) + (d.window (ix1 i) (0 : Fin 1) : Int)).toNat = s.val :=
      congrArg (fun f : (⟨1, ![S]⟩ : Shape).Idx => (f (0 : Fin 1)).val) h'
    have hr0 := (hr (0 : Fin 1)).1
    rw [hs0, hw0] at h0 hr0
    omega
  · intro hrow
    have hr : ∀ a : Fin 1, 0 ≤ d.start (ix1 i) idx a + (d.window (ix1 i) a : Int) ∧
        d.start (ix1 i) idx a + (d.window (ix1 i) a : Int) < ((⟨1, ![S]⟩ : Shape).size a : Int) := by
      intro a
      match a with
      | ⟨0, _⟩ =>
        have e1 := hs0 i idx
        have e2 := hw0 i
        have hS : (s.val : Int) < (S : Int) := by exact_mod_cast s.isLt
        show 0 ≤ d.start (ix1 i) idx (0 : Fin 1) + (d.window (ix1 i) (0 : Fin 1) : Int) ∧
          d.start (ix1 i) idx (0 : Fin 1) + (d.window (ix1 i) (0 : Fin 1) : Int) < (S : Int)
        rw [e1, e2]; omega
    rw [dif_pos hr]
    congr 1
    funext a
    apply Fin.ext
    match a with
    | ⟨0, _⟩ =>
      show (d.start (ix1 i) idx (0 : Fin 1) + (d.window (ix1 i) (0 : Fin 1) : Int)).toNat = s.val
      rw [hs0, hw0]; omega

/-- The accumulating scatter of N update elements into an operand of S elements, at element s: the operand's element
    plus the sum, over the update elements i whose row number (read signed) is s, of the update at i. The hypotheses say
    what the dimension numbers mean: the start is the row number, and there is no window. -/
theorem scatterAdd_vec_apply {S N w : ℕ} (d : ScatterDims ⟨1, ![S]⟩ ⟨2, ![N, 1]⟩ ⟨1, ![N]⟩)
    (hs0 : ∀ (i : Fin N) (idx : IVec ⟨2, ![N, 1]⟩ w),
      d.start (ix1 i) idx (0 : Fin 1) = (idx (ix2 i (0 : Fin 1))).toInt)
    (hw0 : ∀ (i : Fin N), d.window (ix1 i) (0 : Fin 1) = 0)
    (x : FVec Ideal ⟨1, ![S]⟩ .f32) (idx : IVec ⟨2, ![N, 1]⟩ w) (upd : FVec Ideal ⟨1, ![N]⟩ .f32) (s : Fin S) :
    Host.scatterAdd d x idx upd (ix1 s) = x (ix1 s) +
      ∑ i ∈ Finset.univ.filter (fun i : Fin N => (idx (ix2 i (0 : Fin 1))).toInt = (s.val : Int)), upd (ix1 i) := by
  show x (ix1 s) + ∑ j ∈ Finset.univ.filter (fun j => d.resultIdx? j idx = some (ix1 s)), upd j = _
  congr 1
  rw [Finset.sum_filter, Finset.sum_filter, sum_idx1]
  refine Finset.sum_congr rfl fun i _ => ?_
  simp only [resultIdx?_vec_eq_some_iff d hs0 hw0]

end Cert.SegmentSum
-- ==== Proof.LibGatherRows.lean ====
/-
  The host's gather of whole rows, read at an index given by coordinates: what `x[idx]` lowers to for a matrix
  `x : [N, C]` (or a vector `x : [N]`) and a column of M row numbers `idx : [M, 1]` (the index vector along the
  second axis). Row e of the result is row `idx[e, 0]` of the operand, the row number read as a signed integer and
  clamped into `[0, N − 1]` — a gather clamps every start index so that the slice fits, and the slice is one row.
  The clamped row depends on the row number's word alone (`clampRow`), so a matrix and a vector gathered at the same
  column of row numbers are read at the same rows.
-/
import Idealize.ShloMosaic.Lib.ValueIdx

noncomputable section

namespace Cert.GatherRows

open Idealize.ShloMosaic Idealize.ShloMosaic.ValueIdx

/-- A row number's word read signed and clamped into the rows `[0, N − 1]` of an operand with `N > 0` rows. -/
def clampRow (N : Nat) (hN : 0 < N) {w : Nat} (v : BitVec w) : Fin N := ⟨min v.toInt.toNat (N - 1), by omega⟩

/-- A word whose signed value is the row `n` clamps to `n`. -/
theorem clampRow_of_toInt {N : Nat} (hN : 0 < N) {w : Nat} (v : BitVec w) (n : Fin N) (h : v.toInt = (n.val : Int)) :
    clampRow N hN v = n := by
  apply Fin.ext
  show min v.toInt.toNat (N - 1) = n.val
  have := n.isLt
  rw [h]; omega

variable {α : Type}

/-! ## Rows of a matrix: operand [N, C], row numbers [M, 1], result [M, C] -/

/-- The dimension numbers of `x[idx]` for a matrix: the result's second axis is the slice's (offset axis 1), operand
    axis 0 is collapsed and is the one the start index addresses, the slice is one whole row. Their conditions `wf`
    are decided on a program's literal shapes. -/
abbrev rowDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]` (signed, clamped) and column `c`. -/
theorem gather_rows_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowDims N C M wf) x idx (ix2 e c) = x (ix2 (clampRow N hN (idx (ix2 e (0 : Fin 1)))) c) := by
  have h0 : (rowDims N C M wf).start (ix2 e c) idx (0 : Fin 2) + (rowDims N C M wf).batchCoord (ix2 e c) (0 : Fin 2)
      + (rowDims N C M wf).offCoord (ix2 e c) (0 : Fin 2) = (clampRow N hN (idx (ix2 e (0 : Fin 1)))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C M wf).startIndexMap from List.mem_singleton.mpr rfl)]
    have hsi : (rowDims N C M wf).siIdx (ix2 e c) ⟨List.idxOf (0 : Fin 2) (rowDims N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowDims N C M wf).start (ix2 e c) idx (1 : Fin 2) + (rowDims N C M wf).batchCoord (ix2 e c) (1 : Fin 2)
      + (rowDims N C M wf).offCoord (ix2 e c) (1 : Fin 2) = c.val := by
    rw [GatherDims.batchCoord_eq_zero _ _ _ List.not_mem_nil]
    simp only [Nat.add_zero]
    unfold GatherDims.start
    rw [dif_neg (show (1 : Fin 2) ∉ (rowDims N C M wf).startIndexMap from
      fun h => absurd (show (1 : Nat) = 0 from congrArg Fin.val (List.mem_singleton.mp h)) (by decide)), Nat.zero_add]
    rfl
  unfold Host.gather
  congr 1
  funext a
  refine Fin.ext ?_
  match a with
  | ⟨0, _⟩ => exact h0
  | ⟨1, _⟩ => exact h1

/-! ## Elements of a vector: operand [N], row numbers [M, 1], result [M] -/

/-- The dimension numbers of `x[idx]` for a vector: no offset axis, the operand's one axis collapsed and addressed by
    the start index, the slice one element. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at element `idx[e, 0]` (signed, clamped) — the same row the matrix
    gather reads. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecDims N M wf) x idx (ix1 e) = x (ix1 (clampRow N hN (idx (ix2 e (0 : Fin 1))))) := by
  unfold Host.gather
  congr 1
  funext a
  obtain rfl : a = 0 := Subsingleton.elim _ _
  refine Fin.ext ?_
  show (vecDims N M wf).start (ix1 e) idx 0 + (vecDims N M wf).batchCoord (ix1 e) 0
    + (vecDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N M wf).startIndexMap from List.mem_singleton.mpr rfl)]
  have hsi : (vecDims N M wf).siIdx (ix1 e) ⟨List.idxOf (0 : Fin 1) (vecDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.GatherRows
-- ==== Proof.LibNonnegDistrib.lean ====
/-
  Multiplication by a nonnegative finite extended real distributes over every finite sum of extended reals, whatever
  the summands are: on the extended reals a product distributes over a sum as soon as the factor is nonnegative and is
  not +∞ (the one sum that is not a sum of reals, +∞ + −∞ = −∞, is kept by such a factor: a positive one keeps both
  infinities, and zero sends every term and the sum to zero). Nothing is asked of the summands, so no finiteness of the
  arrays that supply them is needed.

  From it, the row law of a degree-normalised neighbourhood sum: scaling the neighbours before they are added up and
  the total afterwards, or scaling each neighbour by both factors before adding, give the same row.
-/
import Idealize.ShloMosaic.PureOps.Ideal.Laws

noncomputable section

namespace Cert.NonnegDistrib

open scoped BigOperators

/-- A nonnegative factor that is not +∞ goes inside a finite sum of arbitrary extended reals. -/
theorem mul_sum {ι : Type*} (t : Finset ι) (a : EReal) (ha : 0 ≤ a) (ha' : a ≠ ⊤) (f : ι → EReal) :
    a * ∑ i ∈ t, f i = ∑ i ∈ t, a * f i := by
  classical
  refine Finset.induction_on t ?_ ?_
  · simp
  · intro i t hi ih
    rw [Finset.sum_insert hi, Finset.sum_insert hi, EReal.left_distrib_of_nonneg_of_ne_top ha ha', ih]

/-- THE ROW LAW. For one row with normalising factor `σ` (nonnegative, not +∞), neighbours `e ∈ t` contributing the
    value `g e` with the neighbour's own factor `k e`, and the row's own value `v`:
    `σ · ((0 + Σ g e · k e) + v · σ) = (0 + Σ g e · (k e · σ)) + v · (σ · σ)`. -/
theorem row_law {ι : Type*} (t : Finset ι) (σ : EReal) (hσ : 0 ≤ σ) (hσ' : σ ≠ ⊤) (g k : ι → EReal) (v : EReal) :
    σ * ((0 + ∑ e ∈ t, g e * k e) + v * σ) = (0 + ∑ e ∈ t, g e * (k e * σ)) + v * (σ * σ) := by
  rw [EReal.left_distrib_of_nonneg_of_ne_top hσ hσ', zero_add, zero_add, mul_sum t σ hσ hσ']
  congr 1
  · refine Finset.sum_congr rfl fun e _ => ?_
    rw [mul_left_comm, mul_comm σ (k e)]
  · rw [mul_left_comm]

end Cert.NonnegDistrib
-- ==== Proof.LibGraphLayer.lean ====
/-
  One layer of a degree-normalised graph convolution, written two ways, read at an index, and shown to be one function.

  The data: a matrix H : [N, C] (a node's row of features after the dense product), a factor per node s : [N], and E edges
  given by three columns of row numbers [E, 1] — `D`, the destination numbers an accumulating scatter reads (a number
  that names no node adds nowhere), and `Sx`, `Dx`, the source and destination numbers a gather reads (clamped into the
  nodes). The reference scales every gathered source row by both ends' factors before adding it into its destination's
  row, and adds the node's own row scaled by its factor squared:
      ref (n, c) = ((z + Σ_{i lands at n} H (src i, c) · (s (src i) · s (dst i))) + H (n, c) · (s n · s n)) + b c.
  The kernel scales every row by its own factor first, gathers and adds those rows, adds the node's own scaled row, and
  scales the total by the node's factor:
      ker (n, c) = s n · ((z + Σ_{i lands at n} H (src i, c) · s (src i)) + H (n, c) · s n) + b c.
  An edge that lands at n has destination n, so `s (dst i)` is `s n` throughout the sum, and the two agree once `s n` is
  moved across the sum — which is allowed for every value of H because the factors are nonnegative and not +∞.
-/
import proofs.«114705_j5342939316732_2_alg».proof.Proof.LibSegmentSum
import proofs.«114705_j5342939316732_2_alg».proof.Proof.LibGatherRows
import proofs.«114705_j5342939316732_2_alg».proof.Proof.LibDenseRows
import proofs.«114705_j5342939316732_2_alg».proof.Proof.LibNonnegDistrib

noncomputable section

namespace Cert.GraphLayer

open Idealize.ShloMosaic Idealize.ShloMosaic.ValueIdx
open Cert.GatherRows
open scoped BigOperators

variable {N C E : ℕ}

/-- The reference's layer: gather, scale each edge's row by both factors, scatter-add, add the self term, add the bias. -/
def refLayer (ds : ScatterDims ⟨2, ![N, C]⟩ ⟨2, ![E, 1]⟩ ⟨2, ![E, C]⟩)
    (wg2 : GatherDims.WF ⟨2, ![N, C]⟩ ⟨2, ![E, 1]⟩ ⟨2, ![E, C]⟩ [1] [0] [] [0] [] 1 ![1, C])
    (wg1 : GatherDims.WF ⟨1, ![N]⟩ ⟨2, ![E, 1]⟩ ⟨1, ![E]⟩ [] [0] [] [0] [] 1 ![1])
    (hE1 : (⟨1, ![E]⟩ : Shape).BroadcastsInDim ⟨2, ![E, 1]⟩ ![0])
    (hEC : (⟨2, ![E, 1]⟩ : Shape).BroadcastsInDim ⟨2, ![E, C]⟩ ![0, 1])
    (hN1 : (⟨1, ![N]⟩ : Shape).BroadcastsInDim ⟨2, ![N, 1]⟩ ![0])
    (hNC : (⟨2, ![N, 1]⟩ : Shape).BroadcastsInDim ⟨2, ![N, C]⟩ ![0, 1])
    (hC1 : (⟨1, ![C]⟩ : Shape).BroadcastsInDim ⟨2, ![1, C]⟩ ![1])
    (h1C : (⟨2, ![1, C]⟩ : Shape).BroadcastsInDim ⟨2, ![N, C]⟩ ![0, 1])
    (H : FVec Ideal ⟨2, ![N, C]⟩ .f32) (s : FVec Ideal ⟨1, ![N]⟩ .f32) (Sx1 Sx2 Dx D : IVec ⟨2, ![E, 1]⟩ 32)
    (z : FVec Ideal ⟨2, ![N, C]⟩ .f32) (b : FVec Ideal ⟨1, ![C]⟩ .f32) : FVec Ideal ⟨2, ![N, C]⟩ .f32 :=
  addf
    (addf
      (Host.scatterAdd ds z D
        (mulf (Host.gather (rowDims N C E wg2) H Sx2)
          (broadcastInDim ⟨2, ![E, C]⟩ ![0, 1] hEC (broadcastInDim ⟨2, ![E, 1]⟩ ![0] hE1
            (mulf (Host.gather (vecDims N E wg1) s Sx1) (Host.gather (vecDims N E wg1) s Dx))))))
      (mulf H (broadcastInDim ⟨2, ![N, C]⟩ ![0, 1] hNC (broadcastInDim ⟨2, ![N, 1]⟩ ![0] hN1 (mulf s s)))))
    (broadcastInDim ⟨2, ![N, C]⟩ ![0, 1] h1C (broadcastInDim ⟨2, ![1, C]⟩ ![1] hC1 b))

/-- The kernel's layer: scale the rows, gather and scatter-add them, add the node's own scaled row, scale by the node's
    factor (kept as a column `S`), add the bias (kept as a row `B`). -/
def kerLayer (ds : ScatterDims ⟨2, ![N, C]⟩ ⟨2, ![E, 1]⟩ ⟨2, ![E, C]⟩)
    (wg2 : GatherDims.WF ⟨2, ![N, C]⟩ ⟨2, ![E, 1]⟩ ⟨2, ![E, C]⟩ [1] [0] [] [0] [] 1 ![1, C])
    (H : FVec Ideal ⟨2, ![N, C]⟩ .f32) (S : FVec Ideal ⟨2, ![N, 1]⟩ .f32) (Sx D : IVec ⟨2, ![E, 1]⟩ 32)
    (z : FVec Ideal ⟨2, ![N, C]⟩ .f32) (B : FVec Ideal ⟨2, ![1, C]⟩ .f32) : FVec Ideal ⟨2, ![N, C]⟩ .f32 :=
  fun i => S (ix2 (i 0 : Fin N) (0 : Fin 1))
      * (Host.scatterAdd ds z D
          (Host.gather (rowDims N C E wg2) (fun j => H j * S (ix2 (j 0 : Fin N) (0 : Fin 1))) Sx) i
        + H i * S (ix2 (i 0 : Fin N) (0 : Fin 1)))
    + B (ix2 (0 : Fin 1) (i 1 : Fin C))

/-- THE LAYER LAW: the two are one function, index by index, whatever H holds, when every factor is nonnegative and
    not +∞, the column and the row the kernel keeps are the factor vector and the bias vector, the accumulator starts
    at zero, both gathers of the reference read the same source numbers as the kernel's, and an edge landing at node n
    reads node n through its gathered destination number. -/
theorem ker_eq_ref (hN : 0 < N)
    (ds : ScatterDims ⟨2, ![N, C]⟩ ⟨2, ![E, 1]⟩ ⟨2, ![E, C]⟩)
    (hs0 : ∀ (i : Fin E) (b : Fin C) (idx : IVec ⟨2, ![E, 1]⟩ 32),
      ds.start (ix2 i b) idx (0 : Fin 2) = (idx (ix2 i (0 : Fin 1))).toInt)
    (hs1 : ∀ (i : Fin E) (b : Fin C) (idx : IVec ⟨2, ![E, 1]⟩ 32), ds.start (ix2 i b) idx (1 : Fin 2) = 0)
    (hw0 : ∀ (i : Fin E) (b : Fin C), ds.window (ix2 i b) (0 : Fin 2) = 0)
    (hw1 : ∀ (i : Fin E) (b : Fin C), ds.window (ix2 i b) (1 : Fin 2) = b.val)
    (wg2 : GatherDims.WF ⟨2, ![N, C]⟩ ⟨2, ![E, 1]⟩ ⟨2, ![E, C]⟩ [1] [0] [] [0] [] 1 ![1, C])
    (wg1 : GatherDims.WF ⟨1, ![N]⟩ ⟨2, ![E, 1]⟩ ⟨1, ![E]⟩ [] [0] [] [0] [] 1 ![1])
    (hE1 : (⟨1, ![E]⟩ : Shape).BroadcastsInDim ⟨2, ![E, 1]⟩ ![0])
    (hEC : (⟨2, ![E, 1]⟩ : Shape).BroadcastsInDim ⟨2, ![E, C]⟩ ![0, 1])
    (hN1 : (⟨1, ![N]⟩ : Shape).BroadcastsInDim ⟨2, ![N, 1]⟩ ![0])
    (hNC : (⟨2, ![N, 1]⟩ : Shape).BroadcastsInDim ⟨2, ![N, C]⟩ ![0, 1])
    (hC1 : (⟨1, ![C]⟩ : Shape).BroadcastsInDim ⟨2, ![1, C]⟩ ![1])
    (h1C : (⟨2, ![1, C]⟩ : Shape).BroadcastsInDim ⟨2, ![N, C]⟩ ![0, 1])
    (H : FVec Ideal ⟨2, ![N, C]⟩ .f32) (s : FVec Ideal ⟨1, ![N]⟩ .f32) (S : FVec Ideal ⟨2, ![N, 1]⟩ .f32)
    (Sx Dx D : IVec ⟨2, ![E, 1]⟩ 32) (z : FVec Ideal ⟨2, ![N, C]⟩ .f32)
    (b : FVec Ideal ⟨1, ![C]⟩ .f32) (B : FVec Ideal ⟨2, ![1, C]⟩ .f32)
    (hgood : ∀ n : Fin N, 0 ≤ s (ix1 n) ∧ s (ix1 n) ≠ ⊤)
    (hS : ∀ n : Fin N, S (ix2 n (0 : Fin 1)) = s (ix1 n))
    (hB : ∀ c : Fin C, B (ix2 (0 : Fin 1) c) = b (ix1 c))
    (hz : ∀ j, z j = 0)
    (hDx : ∀ (i : Fin E) (n : Fin N), (D (ix2 i (0 : Fin 1))).toInt = (n.val : Int) →
      clampRow N hN (Dx (ix2 i (0 : Fin 1))) = n)
    (n : Fin N) (c : Fin C) :
    kerLayer ds wg2 H S Sx D z B (ix2 n c) = refLayer ds wg2 wg1 hE1 hEC hN1 hNC hC1 h1C H s Sx Sx Dx D z b (ix2 n c) := by
  -- the kernel's side, read
  have hk : kerLayer ds wg2 H S Sx D z B (ix2 n c)
      = s (ix1 n) * ((0 + ∑ i ∈ Finset.univ.filter (fun i : Fin E => (D (ix2 i (0 : Fin 1))).toInt = (n.val : Int)),
            H (ix2 (clampRow N hN (Sx (ix2 i (0 : Fin 1)))) c) * s (ix1 (clampRow N hN (Sx (ix2 i (0 : Fin 1))))))
          + H (ix2 n c) * s (ix1 n)) + b (ix1 c) := by
    show S (ix2 n (0 : Fin 1)) * (Host.scatterAdd ds z D
          (Host.gather (rowDims N C E wg2) (fun j => H j * S (ix2 (j 0 : Fin N) (0 : Fin 1))) Sx) (ix2 n c)
        + H (ix2 n c) * S (ix2 n (0 : Fin 1))) + B (ix2 (0 : Fin 1) c) = _
    rw [Cert.SegmentSum.scatterAdd_rows_apply ds hs0 hs1 hw0 hw1, hS, hB, hz]
    refine congrArg (fun t => s (ix1 n) * ((0 + t) + H (ix2 n c) * s (ix1 n)) + b (ix1 c)) ?_
    refine Finset.sum_congr rfl fun i _ => ?_
    rw [gather_rows_apply hN wg2]
    show H (ix2 (clampRow N hN (Sx (ix2 i (0 : Fin 1)))) c) * S (ix2 (clampRow N hN (Sx (ix2 i (0 : Fin 1)))) (0 : Fin 1)) = _
    rw [hS]
  -- the reference's side, read
  have hr : refLayer ds wg2 wg1 hE1 hEC hN1 hNC hC1 h1C H s Sx Sx Dx D z b (ix2 n c)
      = ((0 + ∑ i ∈ Finset.univ.filter (fun i : Fin E => (D (ix2 i (0 : Fin 1))).toInt = (n.val : Int)),
            H (ix2 (clampRow N hN (Sx (ix2 i (0 : Fin 1)))) c)
              * (s (ix1 (clampRow N hN (Sx (ix2 i (0 : Fin 1))))) * s (ix1 n)))
          + H (ix2 n c) * (s (ix1 n) * s (ix1 n))) + b (ix1 c) := by
    unfold refLayer
    rw [addf_apply, addf_apply, Cert.SegmentSum.scatterAdd_rows_apply ds hs0 hs1 hw0 hw1, hz, mulf_apply,
      Cert.DenseRows.rowBias_inDim_apply b hC1 h1C n c,
      Cert.DenseRows.broadcastInDim_a1_ab_apply _ hNC n c, Cert.DenseRows.broadcastInDim_a_a1_apply _ hN1 n (0 : Fin 1),
      mulf_apply]
    refine congrArg (fun t => ((0 + t) + H (ix2 n c) * (s (ix1 n) * s (ix1 n))) + b (ix1 c)) ?_
    refine Finset.sum_congr rfl fun i hi => ?_
    have hland : (D (ix2 i (0 : Fin 1))).toInt = (n.val : Int) := (Finset.mem_filter.mp hi).2
    rw [mulf_apply, gather_rows_apply hN wg2, Cert.DenseRows.broadcastInDim_a1_ab_apply _ hEC i c,
      Cert.DenseRows.broadcastInDim_a_a1_apply _ hE1 i (0 : Fin 1), mulf_apply,
      gather_vec_apply hN wg1, gather_vec_apply hN wg1, hDx i n hland]
  rw [hk, hr, Cert.NonnegDistrib.row_law _ _ (hgood n).1 (hgood n).2]

end Cert.GraphLayer
-- ==== Proof.LibSegmentDims.lean ====
/-
  The dimension numbers of a segment sum, and what they mean: scatter indices [N, 1] with the index vector along the
  second axis, the one index component addressing operand axis 0, which is also the one inserted window axis; for a
  matrix of updates [N, C] the update's second axis is its window axis and runs along the operand's columns, for a
  vector of updates [N] there is no window. So update element (i, b) starts at (row number i, 0) with window coordinate
  (0, b), and update element i of a vector starts at row number i with no window.
-/
import Idealize.ShloMosaic.Lib.ValueIdx

noncomputable section

namespace Cert.SegmentDims

open Idealize.ShloMosaic Idealize.ShloMosaic.ValueIdx

/-! ## Rows: operand [S, C], indices [N, 1], updates [N, C] -/

abbrev rowsDims (S C N : Nat)
    (wf : ScatterDims.WF ⟨2, ![S, C]⟩ ⟨2, ![N, 1]⟩ ⟨2, ![N, C]⟩ [1] [0] [0] 1) :
    ScatterDims ⟨2, ![S, C]⟩ ⟨2, ![N, 1]⟩ ⟨2, ![N, C]⟩ where
  updateWindowDims := [1]
  insertedWindowDims := [0]
  scatterDimsToOperandDims := [0]
  indexVectorDim := 1
  wf := wf

variable {S C N w : Nat}

theorem rows_start0 (wf : ScatterDims.WF ⟨2, ![S, C]⟩ ⟨2, ![N, 1]⟩ ⟨2, ![N, C]⟩ [1] [0] [0] 1)
    (i : Fin N) (b : Fin C) (idx : IVec ⟨2, ![N, 1]⟩ w) :
    (rowsDims S C N wf).start (ix2 i b) idx (0 : Fin 2) = (idx (ix2 i (0 : Fin 1))).toInt := by
  unfold ScatterDims.start
  rw [dif_pos (show (0 : Fin 2) ∈ (rowsDims S C N wf).scatterDimsToOperandDims from List.mem_singleton.mpr rfl)]
  have hsi : (rowsDims S C N wf).siIdx (ix2 i b) ⟨List.idxOf (0 : Fin 2) (rowsDims S C N wf).scatterDimsToOperandDims,
      List.idxOf_lt_length_iff.2 (List.mem_singleton.mpr rfl)⟩ = ix2 i (0 : Fin 1) := by
    funext a; refine Fin.ext ?_
    match a with
    | ⟨0, _⟩ => rfl
    | ⟨1, _⟩ => rfl
  rw [hsi]

theorem rows_start1 (wf : ScatterDims.WF ⟨2, ![S, C]⟩ ⟨2, ![N, 1]⟩ ⟨2, ![N, C]⟩ [1] [0] [0] 1)
    (i : Fin N) (b : Fin C) (idx : IVec ⟨2, ![N, 1]⟩ w) :
    (rowsDims S C N wf).start (ix2 i b) idx (1 : Fin 2) = 0 := by
  unfold ScatterDims.start
  rw [dif_neg (show (1 : Fin 2) ∉ (rowsDims S C N wf).scatterDimsToOperandDims from
    fun h => absurd (show (1 : Nat) = 0 from congrArg Fin.val (List.mem_singleton.mp h)) (by decide))]

theorem rows_window0 (wf : ScatterDims.WF ⟨2, ![S, C]⟩ ⟨2, ![N, 1]⟩ ⟨2, ![N, C]⟩ [1] [0] [0] 1)
    (i : Fin N) (b : Fin C) : (rowsDims S C N wf).window (ix2 i b) (0 : Fin 2) = 0 := by
  unfold ScatterDims.window
  rw [dif_neg]
  intro h
  have : (0 : Fin 2) ∉ (rowsDims S C N wf).insertedWindowDims := by
    simpa [ScatterDims.sKept, Shape.kept, List.mem_filter] using h
  exact this (List.mem_singleton.mpr rfl)

theorem rows_window1 (wf : ScatterDims.WF ⟨2, ![S, C]⟩ ⟨2, ![N, 1]⟩ ⟨2, ![N, C]⟩ [1] [0] [0] 1)
    (i : Fin N) (b : Fin C) : (rowsDims S C N wf).window (ix2 i b) (1 : Fin 2) = b.val := by
  unfold ScatterDims.window
  have h1 : (1 : Fin 2) ∈ (rowsDims S C N wf).sKept := by
    simp [ScatterDims.sKept, Shape.kept, List.mem_filter, List.mem_finRange]
  rw [dif_pos h1]
  rfl

/-! ## Elements: operand [S], indices [N, 1], updates [N] -/

abbrev vecDims (S N : Nat) (wf : ScatterDims.WF ⟨1, ![S]⟩ ⟨2, ![N, 1]⟩ ⟨1, ![N]⟩ [] [0] [0] 1) :
    ScatterDims ⟨1, ![S]⟩ ⟨2, ![N, 1]⟩ ⟨1, ![N]⟩ where
  updateWindowDims := []
  insertedWindowDims := [0]
  scatterDimsToOperandDims := [0]
  indexVectorDim := 1
  wf := wf

theorem vec_start0 (wf : ScatterDims.WF ⟨1, ![S]⟩ ⟨2, ![N, 1]⟩ ⟨1, ![N]⟩ [] [0] [0] 1)
    (i : Fin N) (idx : IVec ⟨2, ![N, 1]⟩ w) :
    (vecDims S N wf).start (ix1 i) idx (0 : Fin 1) = (idx (ix2 i (0 : Fin 1))).toInt := by
  unfold ScatterDims.start
  rw [dif_pos (show (0 : Fin 1) ∈ (vecDims S N wf).scatterDimsToOperandDims from List.mem_singleton.mpr rfl)]
  have hsi : (vecDims S N wf).siIdx (ix1 i) ⟨List.idxOf (0 : Fin 1) (vecDims S N wf).scatterDimsToOperandDims,
      List.idxOf_lt_length_iff.2 (List.mem_singleton.mpr rfl)⟩ = ix2 i (0 : Fin 1) := by
    funext a; refine Fin.ext ?_
    match a with
    | ⟨0, _⟩ => rfl
    | ⟨1, _⟩ => rfl
  rw [hsi]

theorem vec_window0 (wf : ScatterDims.WF ⟨1, ![S]⟩ ⟨2, ![N, 1]⟩ ⟨1, ![N]⟩ [] [0] [0] 1) (i : Fin N) :
    (vecDims S N wf).window (ix1 i) (0 : Fin 1) = 0 := by
  unfold ScatterDims.window
  rw [dif_neg]
  intro h
  have : (0 : Fin 1) ∉ (vecDims S N wf).insertedWindowDims := by
    simpa [ScatterDims.sKept, Shape.kept, List.mem_filter] using h
  exact this (List.mem_singleton.mpr rfl)

end Cert.SegmentDims
-- ==== Proof.LibDegreeFactor.lean ====
/-
  Two facts about a graph given by row numbers, used to normalise a neighbourhood sum by degrees.

  The factor of a node is the reciprocal square root of one plus the number of edges arriving at it. One plus a count
  is a positive real, so at the ideal values the factor is a nonnegative real: in particular it is not +∞, which is
  what lets it be moved across sums of arbitrary extended reals.

  A row number read as a signed word names the node n exactly when its signed value is n. Such a word is not negative,
  so the usual adjustment of negative row numbers (add the node count to a negative number, keep the others) leaves it
  alone, and clamping it into the nodes gives n back. So an edge counted at node n by its destination number also reads
  node n when that number is used, adjusted and clamped, to look a value up.
-/
import Idealize.ShloMosaic.PureOps.Ideal.Laws
import Idealize.ShloMosaic.Lib.ValueIdx

noncomputable section

namespace Cert.DegreeFactor

open Idealize.ShloMosaic
open scoped BigOperators

/-- The reciprocal square root of one plus a count is a nonnegative extended real other than +∞. -/
theorem rsqrt_succ_count {ι : Type*} (t : Finset ι) :
    0 ≤ Ideal.rsqrt ((0 + ∑ _i ∈ t, (1 : EReal)) + 1) ∧ Ideal.rsqrt ((0 + ∑ _i ∈ t, (1 : EReal)) + 1) ≠ ⊤ := by
  have hsum : ((0 : EReal) + ∑ _i ∈ t, (1 : EReal)) + 1 = (((t.card : ℝ) + 1 : ℝ) : EReal) := by
    rw [zero_add, Finset.sum_const, nsmul_one, EReal.coe_add, EReal.coe_one, EReal.coe_natCast]
  have hpos : (0 : ℝ) < (t.card : ℝ) + 1 := by positivity
  rw [hsum, Ideal.rsqrt_coe, if_neg (not_lt.mpr hpos.le), if_neg hpos.ne']
  exact ⟨EReal.coe_nonneg.mpr (inv_nonneg.mpr (Real.sqrt_nonneg _)), EReal.coe_ne_top _⟩

/-- A negative row number moved up by `K`, the others kept. -/
def wrapWord (K w : BitVec 32) : BitVec 32 :=
  Scalar.select (IntOp.cmpi .slt w 0#32) (IntOp.addi w K) w

/-- A row number that is not negative is kept. -/
theorem wrapWord_of_nonneg (K w : BitVec 32) (h : 0 ≤ w.toInt) : wrapWord K w = w := by
  unfold wrapWord
  have hs : IntOp.cmpi .slt w 0#32 = 0#1 := by
    unfold IntOp.cmpi
    have : w.slt 0#32 = false := by
      rw [BitVec.slt]
      simp only [BitVec.toInt_zero, decide_eq_false_iff_not, not_lt]
      exact h
    simp only [this]
    rfl
  rw [hs]
  exact ValueIdx.select_zero _ _

end Cert.DegreeFactor
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.Bridge.lean ====
/-
  The idealized kernel's result and the idealized reference's result are one function of the argument arrays.

  Both programs take the two rows of the edge array, count the edges arriving at each node, and take the reciprocal
  square root of one plus that count as the node's factor; both gather rows at the source numbers and add them into the
  rows the destination numbers name: these stages are the same operations in both and are identified as whole arrays.
  What differs is where the factors multiply. In each of the two layers the kernel's arrangement (scale the rows, add
  up the neighbours, scale the total) and the reference's (scale each neighbour by both factors, then add up) are the
  two sides of the layer law, whose hypotheses hold here: the factor is nonnegative and not +∞ because a count plus one
  is positive, and an edge added into row n has destination number n, which the gather of the factor reads as node n.
  Between the layers both cut the first layer's output off below at zero, and both feed it to the same dense product.
-/
import proofs.«114705_j5342939316732_2_alg».proof.Proof.Stages
import proofs.«114705_j5342939316732_2_alg».proof.Proof.Gen.ReferenceIdeal.Read
import proofs.«114705_j5342939316732_2_alg».proof.Proof.LibGraphLayer
import proofs.«114705_j5342939316732_2_alg».proof.Proof.LibSegmentDims
import proofs.«114705_j5342939316732_2_alg».proof.Proof.LibDegreeFactor
import proofs.«114705_j5342939316732_2_alg».proof.Proof.LibColumnLayout
import Idealize.ShloMosaic.Lib.IdealHost
import Idealize.ShloMosaic.Lib.ValueLayout

set_option maxRecDepth 16384

noncomputable section

namespace Cert.Bridge

open Cert.KernelIdeal Cert.KernelIdeal.Stages Cert.ReferenceIdeal.Read
open Idealize.ShloMosaic Idealize.ShloMosaic.ValueIdx Cert.GatherRows
open scoped BigOperators

/-! ## The stages the two programs share, identified as whole arrays -/

variable (e : (⟨S2x800000, .i32⟩ : BufTy).Contents (Elt Ideal))

theorem dst_col : val_main_v38 (F := Ideal) e = asCol (dstRows e) := rfl
theorem dst_col' : val_main_v83 (F := Ideal) e = asCol (dstRows e) := rfl
theorem src_wrapped : val_main_v32 (F := Ideal) e = asCol (wrapped (srcRows e)) := rfl
theorem src_wrapped_s : val_main_v17 (F := Ideal) e = asCol (wrapped (srcRows e)) := rfl
theorem src_wrapped' : val_main_v77 (F := Ideal) e = asCol (wrapped (srcRows e)) := rfl
theorem src_wrapped_s' : val_main_v62 (F := Ideal) e = asCol (wrapped (srcRows e)) := rfl
theorem dst_wrapped : val_main_v24 (F := Ideal) e = asCol (wrapped (dstRows e)) := rfl
theorem dst_wrapped' : val_main_v69 (F := Ideal) e = asCol (wrapped (dstRows e)) := rfl
theorem factor : val_main_v11 (F := Ideal) e = factorVec (dstRows e) := rfl
theorem factor' : val_main_v56 (F := Ideal) e = factorVec (dstRows e) := rfl

/-! ## The printed dimension numbers are the segment sum's and the row gather's -/

theorem k_scatter1 : Cert.KernelIdeal.scatter_S50000_S800000x1_S800000_n_0_0_1
    = Cert.SegmentDims.vecDims 50000 800000 Cert.KernelIdeal.Facts₀.scatter_S50000_S800000x1_S800000_n_0_0_1_wf := rfl
theorem k_scatter128 : Cert.KernelIdeal.scatter_S50000x128_S800000x1_S800000x128_1_0_0_1
    = Cert.SegmentDims.rowsDims 50000 128 800000 Cert.KernelIdeal.Facts₀.scatter_S50000x128_S800000x1_S800000x128_1_0_0_1_wf := rfl
theorem k_scatter64 : Cert.KernelIdeal.scatter_S50000x64_S800000x1_S800000x64_1_0_0_1
    = Cert.SegmentDims.rowsDims 50000 64 800000 Cert.KernelIdeal.Facts₀.scatter_S50000x64_S800000x1_S800000x64_1_0_0_1_wf := rfl
theorem k_gather128 : Cert.KernelIdeal.gather_S50000x128_S800000x1_S800000x128_1_0_n_n_0_1_1128
    = rowDims 50000 128 800000 Cert.KernelIdeal.Facts₀.gather_S50000x128_S800000x1_S800000x128_1_0_n_n_0_1_1128_wf := rfl
theorem k_gather64 : Cert.KernelIdeal.gather_S50000x64_S800000x1_S800000x64_1_0_n_n_0_1_164
    = rowDims 50000 64 800000 Cert.KernelIdeal.Facts₀.gather_S50000x64_S800000x1_S800000x64_1_0_n_n_0_1_164_wf := rfl
theorem r_scatter128 : Cert.ReferenceIdeal.scatter_S50000x128_S800000x1_S800000x128_1_0_0_1
    = Cert.SegmentDims.rowsDims 50000 128 800000 Cert.ReferenceIdeal.Facts₀.scatter_S50000x128_S800000x1_S800000x128_1_0_0_1_wf := rfl
theorem r_scatter64 : Cert.ReferenceIdeal.scatter_S50000x64_S800000x1_S800000x64_1_0_0_1
    = Cert.SegmentDims.rowsDims 50000 64 800000 Cert.ReferenceIdeal.Facts₀.scatter_S50000x64_S800000x1_S800000x64_1_0_0_1_wf := rfl
theorem r_gather128 : Cert.ReferenceIdeal.gather_S50000x128_S800000x1_S800000x128_1_0_n_n_0_1_1128
    = rowDims 50000 128 800000 Cert.ReferenceIdeal.Facts₀.gather_S50000x128_S800000x1_S800000x128_1_0_n_n_0_1_1128_wf := rfl
theorem r_gather64 : Cert.ReferenceIdeal.gather_S50000x64_S800000x1_S800000x64_1_0_n_n_0_1_164
    = rowDims 50000 64 800000 Cert.ReferenceIdeal.Facts₀.gather_S50000x64_S800000x1_S800000x64_1_0_n_n_0_1_164_wf := rfl
theorem r_gather1 : Cert.ReferenceIdeal.gather_S50000_S800000x1_S800000_n_0_n_n_0_1_1
    = vecDims 50000 800000 Cert.ReferenceIdeal.Facts₀.gather_S50000_S800000x1_S800000_n_0_n_n_0_1_1_wf := rfl

/-! ## The facts the layer law asks for -/

/-- A column of row numbers read at an edge. -/
theorem asCol_apply (r : (⟨S800000, .i32⟩ : BufTy).Contents (Elt Ideal)) (i : Fin 800000) :
    asCol r (ix2 i (0 : Fin 1)) = r (ix1 i) :=
  Cert.DenseRows.broadcastInDim_a_a1_apply r Cert.KernelIdeal.Facts₀.bcast_S800000_S800000x1_0 i 0

/-- The adjusted row numbers read at an edge. -/
theorem wrapped_apply (r : (⟨S800000, .i32⟩ : BufTy).Contents (Elt Ideal)) (i : Fin 800000) :
    wrapped r (ix1 i) = Cert.DegreeFactor.wrapWord 50000#32 (r (ix1 i)) := by
  have h0 : broadcastInDim S800000 ![] Cert.KernelIdeal.Facts₀.bcast_S_S800000 (constantI S_ 32 0#32) (ix1 i) = 0#32 :=
    broadcastInDim_apply _ Cert.KernelIdeal.Facts₀.bcast_S_S800000 _ (ix1 i) (fun a => a.elim0) (fun a => a.elim0)
  have h1 : broadcastInDim S800000 ![] Cert.KernelIdeal.Facts₀.bcast_S_S800000 (constantI S_ 32 50000#32) (ix1 i) = 50000#32 :=
    broadcastInDim_apply _ Cert.KernelIdeal.Facts₀.bcast_S_S800000 _ (ix1 i) (fun a => a.elim0) (fun a => a.elim0)
  show Scalar.select (IntOp.cmpi .slt (r (ix1 i)) (broadcastInDim S800000 ![] Cert.KernelIdeal.Facts₀.bcast_S_S800000 (constantI S_ 32 0#32) (ix1 i)))
      (IntOp.addi (r (ix1 i)) (broadcastInDim S800000 ![] Cert.KernelIdeal.Facts₀.bcast_S_S800000 (constantI S_ 32 50000#32) (ix1 i))) (r (ix1 i)) = _
  rw [h0, h1]
  rfl

/-- An edge whose destination number is the node n reads node n through its adjusted, clamped destination number. -/
theorem dst_reads_node (i : Fin 800000) (n : Fin 50000)
    (h : (asCol (dstRows e) (ix2 i (0 : Fin 1))).toInt = (n.val : Int)) :
    clampRow 50000 (by decide) (asCol (wrapped (dstRows e)) (ix2 i (0 : Fin 1))) = n := by
  rw [asCol_apply] at h
  have hw : 0 ≤ (dstRows e (ix1 i)).toInt := by rw [h]; omega
  rw [asCol_apply, wrapped_apply, Cert.DegreeFactor.wrapWord_of_nonneg _ _ hw]
  exact clampRow_of_toInt (by decide) _ n h

/-- Every node's factor is nonnegative and is not +∞: it is the reciprocal square root of one plus a count. -/
theorem factor_good (n : Fin 50000) :
    0 ≤ factorVec (dstRows e) (ix1 n) ∧ factorVec (dstRows e) (ix1 n) ≠ ⊤ := by
  have hz : broadcastInDim S50000 ![] Cert.KernelIdeal.Facts₀.bcast_S_S50000 (constant (F := Ideal) S_ .f32 0#32) (ix1 n) = 0 :=
    (broadcastInDim_apply _ Cert.KernelIdeal.Facts₀.bcast_S_S50000 _ (ix1 n) (fun a => a.elim0) (fun a => a.elim0)).trans Ideal.ofBits_zero_f32
  have h1 : broadcastInDim S50000 ![] Cert.KernelIdeal.Facts₀.bcast_S_S50000 (constant (F := Ideal) S_ .f32 1065353216#32) (ix1 n) = 1 :=
    (broadcastInDim_apply _ Cert.KernelIdeal.Facts₀.bcast_S_S50000 _ (ix1 n) (fun a => a.elim0) (fun a => a.elim0)).trans Ideal.ofBits_one_f32
  have hone : ∀ i : Fin 800000,
      broadcastInDim S800000 ![] Cert.KernelIdeal.Facts₀.bcast_S_S800000 (constant (F := Ideal) S_ .f32 1065353216#32) (ix1 i) = 1 := fun i =>
    (broadcastInDim_apply _ Cert.KernelIdeal.Facts₀.bcast_S_S800000 _ (ix1 i) (fun a => a.elim0) (fun a => a.elim0)).trans Ideal.ofBits_one_f32
  have hval : factorVec (dstRows e) (ix1 n)
      = Ideal.rsqrt ((0 + ∑ _i ∈ Finset.univ.filter (fun i : Fin 800000 =>
          (asCol (dstRows e) (ix2 i (0 : Fin 1))).toInt = (n.val : Int)), (1 : EReal)) + 1) := by
    have hr : ∀ (v : FVec Ideal S50000 .f32) (j : S50000.Idx),
        Host.rsqrt (F := Ideal) v j = Ideal.rsqrt (v j) := fun _ _ => rfl
    unfold factorVec
    rw [k_scatter1, hr, addf_apply,
      Cert.SegmentSum.scatterAdd_vec_apply _ (Cert.SegmentDims.vec_start0 _) (Cert.SegmentDims.vec_window0 _), hz, h1]
    simp only [hone]
  rw [hval]
  exact Cert.DegreeFactor.rsqrt_succ_count _

/-- The factor column read at a node. -/
theorem factorCol_apply (n : Fin 50000) : factorCol (dstRows e) (ix2 n (0 : Fin 1)) = factorVec (dstRows e) (ix1 n) :=
  Cert.ColumnLayout.shapeCast_a_a1_apply _ Cert.KernelIdeal.Facts₀.shapeCasts_S50000_S50000x1 n 0

theorem biasRow128_apply (b : (⟨S128, .f32⟩ : BufTy).Contents (Elt Ideal)) (c : Fin 128) :
    biasRow128 b (ix2 (0 : Fin 1) c) = b (ix1 c) := shapeCast_a_1a_apply b Cert.KernelIdeal.Facts₀.shapeCasts_S128_S1x128 0 c
theorem biasRow64_apply (b : (⟨S64, .f32⟩ : BufTy).Contents (Elt Ideal)) (c : Fin 64) :
    biasRow64 b (ix2 (0 : Fin 1) c) = b (ix1 c) := shapeCast_a_1a_apply b Cert.KernelIdeal.Facts₀.shapeCasts_S64_S1x64 0 c

/-- The accumulators start at zero. -/
theorem zero128 (j : S50000x128.Idx) :
    broadcastInDim S50000x128 ![] Cert.KernelIdeal.Facts₀.bcast_S_S50000x128 (constant (F := Ideal) S_ .f32 0#32) j = 0 :=
  (broadcastInDim_apply _ Cert.KernelIdeal.Facts₀.bcast_S_S50000x128 _ j (fun a => a.elim0) (fun a => a.elim0)).trans Ideal.ofBits_zero_f32
theorem zero64 (j : S50000x64.Idx) :
    broadcastInDim S50000x64 ![] Cert.KernelIdeal.Facts₀.bcast_S_S50000x64 (constant (F := Ideal) S_ .f32 0#32) j = 0 :=
  (broadcastInDim_apply _ Cert.KernelIdeal.Facts₀.bcast_S_S50000x64 _ j (fun a => a.elim0) (fun a => a.elim0)).trans Ideal.ofBits_zero_f32

/-! ## The dense products -/

/-- The rows of `x` times `w`, 128 columns. -/
def dense128 (x : S50000x128.Idx → Ideal .f32) (w : S128x128.Idx → Ideal .f32) : S50000x128.Idx → Ideal .f32 :=
  fun i => ∑ k : Fin 128, x (ix2 (i 0 : Fin 50000) k) * w (ix2 k (i 1 : Fin 128))
/-- The rows of `x` times `w`, 64 columns. -/
def dense64 (x : S50000x128.Idx → Ideal .f32) (w : S128x64.Idx → Ideal .f32) : S50000x64.Idx → Ideal .f32 :=
  fun i => ∑ k : Fin 128, x (ix2 (i 0 : Fin 50000) k) * w (ix2 k (i 1 : Fin 64))

/-- The reference's first dense product is that array. -/
theorem ref_dense128 (x : S50000x128.Idx → Ideal .f32) (w : S128x128.Idx → Ideal .f32) :
    val_main_v4 (F := Ideal) x w = dense128 x w := by
  funext j
  obtain ⟨n, k, rfl⟩ : ∃ (n : Fin 50000) (k : Fin 128), j = ix2 n k := ⟨j 0, j 1, eq_ix2 j⟩
  exact Cert.DenseRows.dotGeneral_plain_apply Cert.ReferenceIdeal.dot_S50000x128_S128x128_S50000x128_1_0_0_1_n_n rfl rfl rfl rfl
    lhs_main_v4_0 rhs_main_v4_1 x w n k

/-! ## The first layer -/

variable (x : (⟨S50000x128, .f32⟩ : BufTy).Contents (Elt Ideal)) (w1 : (⟨S128x128, .f32⟩ : BufTy).Contents (Elt Ideal))
  (b1 : (⟨S128, .f32⟩ : BufTy).Contents (Elt Ideal)) (w2 : (⟨S128x64, .f32⟩ : BufTy).Contents (Elt Ideal))
  (b2 : (⟨S64, .f32⟩ : BufTy).Contents (Elt Ideal))

/-- The kernel's first layer before the cut-off, as the law's kernel side. -/
def ker1 : S50000x128.Idx → Ideal .f32 :=
  Cert.GraphLayer.kerLayer (Cert.SegmentDims.rowsDims 50000 128 800000 Cert.KernelIdeal.Facts₀.scatter_S50000x128_S800000x1_S800000x128_1_0_0_1_wf)
    Cert.KernelIdeal.Facts₀.gather_S50000x128_S800000x1_S800000x128_1_0_n_n_0_1_1128_wf (dense128 x w1) (factorCol (dstRows e))
    (asCol (wrapped (srcRows e))) (asCol (dstRows e))
    (broadcastInDim S50000x128 ![] Cert.KernelIdeal.Facts₀.bcast_S_S50000x128 (constant (F := Ideal) S_ .f32 0#32)) (biasRow128 b1)

/-- The scaled product is the dense product with each row scaled. -/
theorem scaled1_as_dense (s : S50000x1.Idx → Ideal .f32) :
    ScaledProduct1.scaledProduct x w1 s = fun j => dense128 x w1 j * s (ix2 (j 0 : Fin 50000) (0 : Fin 1)) := rfl

theorem out1_apply (n : Fin 50000) (k : Fin 128) :
    out1 x e w1 b1 (ix2 n k) = max (ker1 e x w1 b1 (ix2 n k)) (Ideal.ofBits .f32 0x00000000#32) := by
  unfold out1 agg1 scaled1 aggregate128 ker1 Cert.GraphLayer.kerLayer
  rw [k_scatter128, k_gather128, scaled1_as_dense, Combined1.combined_apply]

/-- The reference's first layer before the cut-off, as the law's reference side. -/
theorem ref1_eq : val_main_v47 (F := Ideal) x e w1 b1
    = Cert.GraphLayer.refLayer (Cert.SegmentDims.rowsDims 50000 128 800000 Cert.ReferenceIdeal.Facts₀.scatter_S50000x128_S800000x1_S800000x128_1_0_0_1_wf)
        Cert.ReferenceIdeal.Facts₀.gather_S50000x128_S800000x1_S800000x128_1_0_n_n_0_1_1128_wf Cert.ReferenceIdeal.Facts₀.gather_S50000_S800000x1_S800000_n_0_n_n_0_1_1_wf
        Cert.ReferenceIdeal.Facts₀.bcast_S800000_S800000x1_0 Cert.ReferenceIdeal.Facts₀.bcast_S800000x1_S800000x128_0_1 Cert.ReferenceIdeal.Facts₀.bcast_S50000_S50000x1_0
        Cert.ReferenceIdeal.Facts₀.bcast_S50000x1_S50000x128_0_1 Cert.ReferenceIdeal.Facts₀.bcast_S128_S1x128_1 Cert.ReferenceIdeal.Facts₀.bcast_S1x128_S50000x128_0_1
        (val_main_v4 (F := Ideal) x w1) (val_main_v11 (F := Ideal) e) (val_main_v17 (F := Ideal) e) (val_main_v32 (F := Ideal) e)
        (val_main_v24 (F := Ideal) e) (val_main_v38 (F := Ideal) e) (val_main_v37 (F := Ideal)) b1 := by
  unfold val_main_v47 val_main_v46 val_main_v45 val_main_v44 val_main_v43 val_main_v42 val_main_v41 val_main_v40 val_main_v39 val_main_v36 val_main_v35 val_main_v34 val_main_v33 val_main_v26 val_main_v25 val_main_v18 Cert.GraphLayer.refLayer
  rw [r_scatter128, r_gather128, r_gather1]

/-- THE FIRST LAYER: the two programs' outputs after the cut-off at zero are one array. -/
theorem layer1 : out1 x e w1 b1 = val_main_v48 (F := Ideal) x e w1 b1 := by
  funext j
  obtain ⟨n, k, rfl⟩ : ∃ (n : Fin 50000) (k : Fin 128), j = ix2 n k := ⟨j 0, j 1, eq_ix2 j⟩
  rw [out1_apply]
  unfold val_main_v48
  rw [maximumf_apply]
  have hc : val_main_call0_v0 (F := Ideal) (ix2 n k) = Ideal.ofBits .f32 0x00000000#32 :=
    broadcastInDim_apply _ Cert.ReferenceIdeal.Facts₀.bcast_S_S50000x128 _ (ix2 n k) (fun a => a.elim0) (fun a => a.elim0)
  rw [hc, ref1_eq, ref_dense128, factor, src_wrapped_s, src_wrapped, dst_wrapped, dst_col]
  refine congrArg (fun t => max t (Ideal.ofBits .f32 0x00000000#32)) ?_
  exact Cert.GraphLayer.ker_eq_ref (by decide) _ (Cert.SegmentDims.rows_start0 _) (Cert.SegmentDims.rows_start1 _)
    (Cert.SegmentDims.rows_window0 _) (Cert.SegmentDims.rows_window1 _) _ _ _ _ _ _ _ _
    (dense128 x w1) (factorVec (dstRows e)) (factorCol (dstRows e)) (asCol (wrapped (srcRows e))) (asCol (wrapped (dstRows e)))
    (asCol (dstRows e)) _ b1 (biasRow128 b1) (factor_good e) (factorCol_apply e) (biasRow128_apply b1) zero128
    (dst_reads_node e) n k

/-! ## The second layer -/

/-- The reference's second dense product is the dense product of the first layer's output. -/
theorem ref_dense64 : val_main_v49 (F := Ideal) x e w1 b1 w2 = dense64 (out1 x e w1 b1) w2 := by
  funext j
  obtain ⟨n, k, rfl⟩ : ∃ (n : Fin 50000) (k : Fin 64), j = ix2 n k := ⟨j 0, j 1, eq_ix2 j⟩
  rw [layer1]
  exact Cert.DenseRows.dotGeneral_plain_apply Cert.ReferenceIdeal.dot_S50000x128_S128x64_S50000x64_1_0_0_1_n_n rfl rfl rfl rfl
    lhs_main_v49_0 rhs_main_v49_1 (val_main_v48 (F := Ideal) x e w1 b1) w2 n k

/-- The second scaled product is the dense product with each row scaled. -/
theorem scaled2_as_dense (y : S50000x128.Idx → Ideal .f32) (s : S50000x1.Idx → Ideal .f32) :
    ScaledProduct2.scaledProduct y w2 s = fun j => dense64 y w2 j * s (ix2 (j 0 : Fin 50000) (0 : Fin 1)) := rfl

/-- The kernel's second layer, as the law's kernel side. -/
def ker2 : S50000x64.Idx → Ideal .f32 :=
  Cert.GraphLayer.kerLayer (Cert.SegmentDims.rowsDims 50000 64 800000 Cert.KernelIdeal.Facts₀.scatter_S50000x64_S800000x1_S800000x64_1_0_0_1_wf)
    Cert.KernelIdeal.Facts₀.gather_S50000x64_S800000x1_S800000x64_1_0_n_n_0_1_164_wf (dense64 (out1 x e w1 b1) w2) (factorCol (dstRows e))
    (asCol (wrapped (srcRows e))) (asCol (dstRows e))
    (broadcastInDim S50000x64 ![] Cert.KernelIdeal.Facts₀.bcast_S_S50000x64 (constant (F := Ideal) S_ .f32 0#32)) (biasRow64 b2)

theorem result_apply (n : Fin 50000) (k : Fin 64) :
    result x e w1 b1 w2 b2 (ix2 n k) = ker2 e x w1 b1 w2 b2 (ix2 n k) := by
  unfold result agg2 scaled2 aggregate64 ker2 Cert.GraphLayer.kerLayer
  rw [k_scatter64, k_gather64, scaled2_as_dense, Combined2.combined_apply]

/-- The reference's second layer, as the law's reference side. -/
theorem ref2_eq : val_main_v92 (F := Ideal) x e w1 b1 w2 b2
    = Cert.GraphLayer.refLayer (Cert.SegmentDims.rowsDims 50000 64 800000 Cert.ReferenceIdeal.Facts₀.scatter_S50000x64_S800000x1_S800000x64_1_0_0_1_wf)
        Cert.ReferenceIdeal.Facts₀.gather_S50000x64_S800000x1_S800000x64_1_0_n_n_0_1_164_wf Cert.ReferenceIdeal.Facts₀.gather_S50000_S800000x1_S800000_n_0_n_n_0_1_1_wf
        Cert.ReferenceIdeal.Facts₀.bcast_S800000_S800000x1_0 Cert.ReferenceIdeal.Facts₀.bcast_S800000x1_S800000x64_0_1 Cert.ReferenceIdeal.Facts₀.bcast_S50000_S50000x1_0
        Cert.ReferenceIdeal.Facts₀.bcast_S50000x1_S50000x64_0_1 Cert.ReferenceIdeal.Facts₀.bcast_S64_S1x64_1 Cert.ReferenceIdeal.Facts₀.bcast_S1x64_S50000x64_0_1
        (val_main_v49 (F := Ideal) x e w1 b1 w2) (val_main_v56 (F := Ideal) e) (val_main_v62 (F := Ideal) e) (val_main_v77 (F := Ideal) e)
        (val_main_v69 (F := Ideal) e) (val_main_v83 (F := Ideal) e) (val_main_v82 (F := Ideal)) b2 := by
  unfold val_main_v92 val_main_v91 val_main_v90 val_main_v89 val_main_v88 val_main_v87 val_main_v86 val_main_v85 val_main_v84 val_main_v81 val_main_v80 val_main_v79 val_main_v78 val_main_v71 val_main_v70 val_main_v63 Cert.GraphLayer.refLayer
  rw [r_scatter64, r_gather64, r_gather1]

/-- THE RESULTS: the kernel's result and the reference's are one array. -/
theorem result_eq_ref : result x e w1 b1 w2 b2 = val_main_v92 (F := Ideal) x e w1 b1 w2 b2 := by
  funext j
  obtain ⟨n, k, rfl⟩ : ∃ (n : Fin 50000) (k : Fin 64), j = ix2 n k := ⟨j 0, j 1, eq_ix2 j⟩
  rw [result_apply, ref2_eq, ref_dense64, factor', src_wrapped_s', src_wrapped', dst_wrapped', dst_col']
  exact Cert.GraphLayer.ker_eq_ref (by decide) _ (Cert.SegmentDims.rows_start0 _) (Cert.SegmentDims.rows_start1 _)
    (Cert.SegmentDims.rows_window0 _) (Cert.SegmentDims.rows_window1 _) _ _ _ _ _ _ _ _
    (dense64 (out1 x e w1 b1) w2) (factorVec (dstRows e)) (factorCol (dstRows e)) (asCol (wrapped (srcRows e)))
    (asCol (wrapped (dstRows e))) (asCol (dstRows e)) _ b2 (biasRow64 b2) (factor_good e) (factorCol_apply e)
    (biasRow64_apply b2) zero64 (dst_reads_node e) n k

end Cert.Bridge
-- ==== Proof.lean ====
/-
  A two-layer graph convolution with symmetric degree normalisation, as a kernel and as a plain reference, are equal
  over the extended reals for every input.

  The graph is an edge array of two rows of row numbers, source and destination. The degree of node n is one plus the
  number of edges whose destination number is n, and its factor is s n = 1 / √(degree n). With h = x · W, a layer of the
  reference is
      out (n, d) = Σ_{edges i arriving at n} h (src i, d) · (s (src i) · s (dst i)) + h (n, d) · (s n · s n) + b d,
  and the kernel computes
      out (n, d) = s n · (Σ_{edges i arriving at n} (h · s) (src i, d) + (h · s) (n, d)) + b d,
  with the dense product and the final combination in kernel regions (ten blocks of 5000 rows each) and the gather and
  the accumulating scatter between them on the host. The first layer's output is cut off below at zero and is the
  second layer's input.

  The two agree for every input, including row numbers that name no node: the programs take the same row numbers through
  the same gather (a number is adjusted if negative and clamped into the nodes) and the same accumulating scatter (a
  number that names no node adds nowhere), so every edge reads the same rows in both; an edge added into row n has
  destination n, so its factor s (dst i) is s n; and s n, a nonnegative real because a degree is at least one, moves
  across the sum and the addition for arbitrary extended-real summands. No finiteness of the float inputs is used.

  The kernel's value is read off its run region by region (the modules ScaledProduct1/2, Combined1/2, Stages, ResultRun),
  the reference's off its generated run, and Bridge joins them through the layer law (LibGraphLayer).
-/
import proofs.«114705_j5342939316732_2_alg».proof.Defs
import proofs.«114705_j5342939316732_2_alg».proof.Proof.Gen.Kernel
import proofs.«114705_j5342939316732_2_alg».proof.Proof.Gen.Kernel.Frame
import proofs.«114705_j5342939316732_2_alg».proof.Proof.Gen.KernelIdeal
import proofs.«114705_j5342939316732_2_alg».proof.Proof.Gen.KernelIdeal.Frame
import proofs.«114705_j5342939316732_2_alg».proof.Proof.Gen.ReferenceIdeal
import proofs.«114705_j5342939316732_2_alg».proof.Proof.Gen.ReferenceIdeal.Run
import proofs.«114705_j5342939316732_2_alg».proof.Proof.Gen.ReferenceIdeal.Read
import proofs.«114705_j5342939316732_2_alg».proof.Proof.Gen.Pre_finite_inputs
import proofs.«114705_j5342939316732_2_alg».proof.Proof.ResultRun
import proofs.«114705_j5342939316732_2_alg».proof.Proof.Stages
import proofs.«114705_j5342939316732_2_alg».proof.Proof.Bridge

set_option maxRecDepth 16384

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten to read it at the ideal values. -/
theorem preserves : Cert.preserves_Kernel_KernelIdeal := trivial

/-- From memories agreeing on the arguments both programs end, with one result: the kernel's stages composed, which is
    the reference's last stage. -/
theorem algebraic : Cert.algebraic_KernelIdeal_ReferenceIdeal := by
  intro m ρ m' ρ' _ hagree
  refine ⟨fun c => Cert.KernelIdeal.Stages.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Stages.at7_v37 m ρ c), (h c).2⟩)
      (Cert.KernelIdeal.ResultRun.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v92_eq, (hagree c).1, (hagree c).2.1, (hagree c).2.2.1, (hagree c).2.2.2.1,
      (hagree c).2.2.2.2.1, (hagree c).2.2.2.2.2]
    exact (Cert.Bridge.result_eq_ref _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
